-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 93
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S50000, .i32⟩
  | .hbm, ⟨13, _⟩ => ⟨S650000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S50000x128, .f32⟩
  | .hbm, ⟨49, _⟩ => ⟨S650000x1, .f32⟩
  | .hbm, ⟨50, _⟩ => ⟨S_, .i32⟩
  | .hbm, ⟨51, _⟩ => ⟨S650000, .i32⟩
  | .hbm, ⟨52, _⟩ => ⟨S650000, .i1⟩
  | .hbm, ⟨53, _⟩ => ⟨S_, .i32⟩
  | .hbm, ⟨54, _⟩ => ⟨S650000, .i32⟩
  | .hbm, ⟨55, _⟩ => ⟨S650000, .i32⟩
  | .hbm, ⟨56, _⟩ => ⟨S650000, .i32⟩
  | .hbm, ⟨57, _⟩ => ⟨S650000x1, .i32⟩
  | .hbm, ⟨58, _⟩ => ⟨S650000x128, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S650000x1, .f32⟩
  | .hbm, ⟨73, _⟩ => ⟨S_, .i32⟩
  | .hbm, ⟨74, _⟩ => ⟨S650000, .i32⟩
  | .hbm, ⟨75, _⟩ => ⟨S650000, .i1⟩
  | .hbm, ⟨76, _⟩ => ⟨S_, .i32⟩
  | .hbm, ⟨77, _⟩ => ⟨S650000, .i32⟩
  | .hbm, ⟨78, _⟩ => ⟨S650000, .i32⟩
  | .hbm, ⟨79, _⟩ => ⟨S650000, .i32⟩
  | .hbm, ⟨80, _⟩ => ⟨S650000x1, .i32⟩
  | .hbm, ⟨81, _⟩ => ⟨S650000x128, .f32⟩
  | .hbm, ⟨82, _⟩ => ⟨S650000x128, .f32⟩
  | .hbm, ⟨83, _⟩ => ⟨S650000x128, .f32⟩
  | .hbm, ⟨84, _⟩ => ⟨S_, .f32⟩
  | .hbm, ⟨85, _⟩ => ⟨S50000x128, .f32⟩
  | .hbm, ⟨86, _⟩ => ⟨S650000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S1x40, .f32⟩
  | .hbm, ⟨92, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S50000x128, .f32⟩
  | 9 => ⟨S1x600000, .i32⟩
  | 10 => ⟨S600000, .i32⟩
  | 11 => ⟨S1x600000, .i32⟩
  | 12 => ⟨S600000, .i32⟩
  | 13 => ⟨S50000, .i32⟩
  | 14 => ⟨S650000, .i32⟩
  | 15 => ⟨S650000, .i32⟩
  | 16 => ⟨S_, .f32⟩
  | 17 => ⟨S650000, .f32⟩
  | 18 => ⟨S_, .f32⟩
  | 19 => ⟨S50000, .f32⟩
  | 20 => ⟨S650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S650000, .i32⟩
  | 32 => ⟨S650000, .i1⟩
  | 33 => ⟨S_, .i32⟩
  | 34 => ⟨S650000, .i32⟩
  | 35 => ⟨S650000, .i32⟩
  | 36 => ⟨S650000, .i32⟩
  | 37 => ⟨S650000x1, .i32⟩
  | 38 => ⟨S650000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S650000, .f32⟩
  | 49 => ⟨S650000x1, .f32⟩
  | 50 => ⟨S_, .i32⟩
  | 51 => ⟨S650000, .i32⟩
  | 52 => ⟨S650000, .i1⟩
  | 53 => ⟨S_, .i32⟩
  | 54 => ⟨S650000, .i32⟩
  | 55 => ⟨S650000, .i32⟩
  | 56 => ⟨S650000, .i32⟩
  | 57 => ⟨S650000x1, .i32⟩
  | 58 => ⟨S650000x128, .f32⟩
  | 59 => ⟨S650000x128, .f32⟩
  | 60 => ⟨S650000x128, .f32⟩
  | 61 => ⟨S_, .f32⟩
  | 62 => ⟨S50000x128, .f32⟩
  | 63 => ⟨S650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S1x600000, .i32⟩
  | 73 => ⟨S600000, .i32⟩
  | 74 => ⟨S1x600000, .i32⟩
  | 75 => ⟨S600000, .i32⟩
  | 76 => ⟨S50000, .i32⟩
  | 77 => ⟨S650000, .i32⟩
  | 78 => ⟨S650000, .i32⟩
  | 79 => ⟨S_, .f32⟩
  | 80 => ⟨S650000, .f32⟩
  | 81 => ⟨S_, .f32⟩
  | 82 => ⟨S50000, .f32⟩
  | 83 => ⟨S650000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S650000, .i32⟩
  | 95 => ⟨S650000, .i1⟩
  | 96 => ⟨S_, .i32⟩
  | 97 => ⟨S650000, .i32⟩
  | 98 => ⟨S650000, .i32⟩
  | 99 => ⟨S650000, .i32⟩
  | 100 => ⟨S650000x1, .i32⟩
  | 101 => ⟨S650000, .f32⟩
  | 102 => ⟨S_, .i32⟩
  | 103 => ⟨S650000, .i32⟩
  | 104 => ⟨S650000, .i1⟩
  | 105 => ⟨S_, .i32⟩
  | 106 => ⟨S650000, .i32⟩
  | 107 => ⟨S650000, .i32⟩
  | 108 => ⟨S650000, .i32⟩
  | 109 => ⟨S650000x1, .i32⟩
  | 110 => ⟨S650000, .f32⟩
  | 111 => ⟨S650000, .f32⟩
  | 112 => ⟨S650000x1, .f32⟩
  | 113 => ⟨S_, .i32⟩
  | 114 => ⟨S650000, .i32⟩
  | 115 => ⟨S650000, .i1⟩
  | 116 => ⟨S_, .i32⟩
  | 117 => ⟨S650000, .i32⟩
  | 118 => ⟨S650000, .i32⟩
  | 119 => ⟨S650000, .i32⟩
  | 120 => ⟨S650000x1, .i32⟩
  | 121 => ⟨S650000x128, .f32⟩
  | 122 => ⟨S650000x128, .f32⟩
  | 123 => ⟨S650000x128, .f32⟩
  | 124 => ⟨S_, .f32⟩
  | 125 => ⟨S50000x128, .f32⟩
  | 126 => ⟨S650000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S50000x40, .f32⟩
  | 4 => ⟨S1x40, .f32⟩
  | 5 => ⟨S50000x40, .f32⟩
  | 6 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_17 : Ref sig .tc := ⟨.hbm, 113, rfl⟩
abbrev main_v80 : Ref sig .tc := ⟨.hbm, 114, rfl⟩
abbrev main_v81 : Ref sig .tc := ⟨.hbm, 115, rfl⟩
abbrev main_c_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x40_S50000x40_1_0_0_1_n_n_wf : DotDims.WF S50000x128 S128x40 S50000x40 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel's run, with its result array named.

  Every weakly fair execution of the program ends, nothing faulting, with each buffer that outlives a region at the
  contents the last segment leaves — in particular the result array, and the eight arguments as launched.
-/
import proofs.«124308_j9466107920639_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at what the last region leaves in it, the arguments as launched. -/
theorem run : θ_run defs (onTc (τ := τ) (main (F := F))) ⟨m, fun _ => 0, ρ⟩ (fun r => ∀ c : Dev nD,
      r.2.mem ((c.tc : Thread nD τ).loc main_v66) = W9 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v66 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Result

end
-- ==== Proof.GraphOps.lean ====
/-
  The graph side of the network, as functions of arrays: the edge list with a self-loop per node, the symmetric
  normalisation weights, and one round of message passing.

  An edge list of 600000 (source, target) pairs is extended by the 50000 pairs (v, v). The degree of a node is the number
  of extended edges that end in it; an extended edge from s to t weighs deg(s)^(-1/2) · deg(t)^(-1/2), a node of
  degree zero counting for zero. One round gathers the row of each edge's source, scales it by the edge's weight, sums
  the scaled rows into the row of the edge's target, and adds a bias row. An index below zero is read from the end
  (50000 is added to it). These are the host operations both programs apply; here they are named once.
-/
import proofs.«124308_j9466107920639_1_alg».proof.Proof.Gen.KernelIdeal
import Idealize.ShloMosaic.PureOps.Ideal

noncomputable section

namespace Cert.KernelIdeal.Graph

open Cert.KernelIdeal Cert.KernelIdeal.Gen Idealize.ShloMosaic

abbrev Edges := IVec S2x600000 32
abbrev Ends := IVec S650000 32
abbrev EndsCol := IVec S650000x1 32
abbrev Weights := FVec Ideal S650000 .f32
abbrev PerNode := FVec Ideal S50000 .f32
abbrev Features := FVec Ideal S50000x128 .f32
abbrev BiasRow := FVec Ideal S128 .f32

/-- The sources of the extended edges: row 0 of the edge list, then every node once. -/
def sources (e : Edges) : Ends :=
  concatenate S650000 0 [⟨S600000, shapeCast S600000 (extractStridedSlice S1x600000 ![0, 0] e slices_S2x600000_S1x600000_0_0) shapeCasts_S1x600000_S600000⟩, ⟨S50000, iotaInDim S50000 32 0⟩] concatenates_S600000_S50000_S650000_d0

/-- The targets of the extended edges: row 1 of the edge list, then every node once. -/
def targets (e : Edges) : Ends :=
  concatenate S650000 0 [⟨S600000, shapeCast S600000 (extractStridedSlice S1x600000 ![1, 0] e slices_S2x600000_S1x600000_1_0) shapeCasts_S1x600000_S600000⟩, ⟨S50000, iotaInDim S50000 32 0⟩] concatenates_S600000_S50000_S650000_d0

/-- Node indices as a column for a gather, an index below zero moved up by the number of nodes. -/
def fromEnd (v : Ends) : EndsCol :=
  broadcastInDim S650000x1 ![0] bcast_S650000_S650000x1_0
    (select (cmpi .slt v (broadcastInDim S650000 ![] bcast_S_S650000 (constantI S_ 32 0#32)))
      (addi v (broadcastInDim S650000 ![] bcast_S_S650000 (constantI S_ 32 50000#32))) v)

abbrev Flags := IVec S50000 1
abbrev Scalar := FVec Ideal S_ .f32

/-- The number of extended edges ending in each node. -/
def degree (d : Ends) : PerNode :=
  Host.scatterAdd scatter_S50000_S650000x1_S650000_n_0_0_1
    (broadcastInDim S50000 ![] bcast_S_S50000 (constant (F := Ideal) S_ .f32 0x00000000#32))
    (broadcastInDim S650000x1 ![0] bcast_S650000_S650000x1_0 d)
    (broadcastInDim S650000 ![] bcast_S_S650000 (constant (F := Ideal) S_ .f32 0x3F800000#32))

/-- Where a per-node value is positive. -/
def positiveOf (g : PerNode) : Flags :=
  cmpf .ogt g (broadcastInDim S50000 ![] bcast_S_S50000 (constant (F := Ideal) S_ .f32 0x00000000#32))
/-- The inverse square root of a per-node value, wherever it is defined. -/
def rsqrtOf (g : PerNode) : PerNode := Host.rsqrt g
/-- The scalar zero. -/
def zeroScalar : Scalar := constant (F := Ideal) S_ .f32 0x00000000#32
/-- A per-node value kept where a flag is set, a scalar elsewhere. -/
def keepWhere (p : Flags) (x : PerNode) (z : Scalar) : PerNode :=
  select p x (broadcastInDim S50000 ![] bcast_S_S50000 (id z))
/-- deg^(-1/2) per node, zero where the degree is not positive. -/
def invSqrtDegree (d : Ends) : PerNode :=
  keepWhere (positiveOf (degree d)) (rsqrtOf (degree d)) zeroScalar

/-- An edge's weight from a per-node factor: the product of the factor at its two ends. -/
def weightsOf (f : PerNode) (s d : Ends) : Weights :=
  mulf (Host.gather gather_S50000_S650000x1_S650000_n_0_n_n_0_1_1 f (fromEnd s))
    (Host.gather gather_S50000_S650000x1_S650000_n_0_n_n_0_1_1 f (fromEnd d))
/-- The weight of each extended edge: the product of its two ends' deg^(-1/2). -/
def edgeWeights (s d : Ends) : Weights := weightsOf (invSqrtDegree d) s d

/-- The sum, into each target's row, of its incoming edges' weighted source rows. -/
def scatterRows (h : Features) (wt : Weights) (s d : Ends) : Features :=
  Host.scatterAdd scatter_S50000x128_S650000x1_S650000x128_1_0_0_1
    (broadcastInDim S50000x128 ![] bcast_S_S50000x128 (constant (F := Ideal) S_ .f32 0x00000000#32))
    (broadcastInDim S650000x1 ![0] bcast_S650000_S650000x1_0 d)
    (mulf (broadcastInDim S650000x128 ![0, 1] bcast_S650000x1_S650000x128_0_1 (broadcastInDim S650000x1 ![0] bcast_S650000_S650000x1_0 wt))
      (Host.gather gather_S50000x128_S650000x1_S650000x128_1_0_n_n_0_1_1128 h (fromEnd s)))
/-- A bias row added to every node's row. -/
def addBias (r : Features) (b : BiasRow) : Features :=
  addf r (broadcastInDim S50000x128 ![0, 1] bcast_S1x128_S50000x128_0_1 (broadcastInDim S1x128 ![1] bcast_S128_S1x128_1 b))
/-- One round of message passing over node rows `h`: each extended edge carries its source's row times its weight
    to its target, where the rows are summed; then the bias row is added to every node. -/
def aggregate (h : Features) (wt : Weights) (s d : Ends) (b : BiasRow) : Features :=
  addBias (scatterRows h wt s d) b

/-- The positive part, entry by entry. -/
def positivePart (h : Features) : Features :=
  maximumf h (broadcastInDim S50000x128 ![] bcast_S_S50000x128 (constant (F := Ideal) S_ .f32 0x00000000#32))

end Cert.KernelIdeal.Graph

end
-- ==== Proof.FoldSplit.lean ====
/-
  A fold of host operations over a list cut in two: the fold of the second part from the fold of the first.
-/
import Idealize.ShloMosaic.Lib.StableHlo.Run

namespace Cert.Fold

open Idealize.ShloMosaic Idealize.ShloMosaic.StableHlo

variable {τ : Topo} {sig : RefSig} {Val : EltTy → Type}

/-- The fold over a concatenation is the fold over the second list from the fold over the first. -/
theorem after_append (l₁ l₂ : List (HloOp τ sig Val)) (V : Valuation τ sig Val) : after (l₁ ++ l₂) V = after l₂ (after l₁ V) := by
  induction l₁ generalizing V with
  | nil => rfl
  | cons op l ih => exact ih _

/-- A list's fold is the fold of its tail after `n` from the fold of its first `n` operations. -/
theorem after_split (n : Nat) (l : List (HloOp τ sig Val)) (V : Valuation τ sig Val) :
    after l V = after (l.drop n) (after (l.take n) V) := by
  conv_lhs => rw [← List.take_append_drop n l]
  exact after_append _ _ _

end Cert.Fold
-- ==== Proof.StretchFirst.lean ====
/-
  The host operations before the first pipelined product, folded over any buffer contents: they build the extended edge
  list and its weights from the edge list and touch no other argument. They come in three lists, the first read in two
  parts; each line below reads one part's fold at one buffer (the fold computes, so each is an evaluation), and the last
  group puts the parts together.
-/
import proofs.«124308_j9466107920639_1_alg».proof.Proof.Gen.KernelIdeal.Launch
import proofs.«124308_j9466107920639_1_alg».proof.Proof.GraphOps
import proofs.«124308_j9466107920639_1_alg».proof.Proof.FoldSplit
import Idealize.ShloMosaic.Lib.StableHlo.Run

set_option maxRecDepth 65536

noncomputable section

namespace Cert.KernelIdeal.States

open Cert.KernelIdeal Cert.KernelIdeal.Gen Cert.KernelIdeal.Graph
open Idealize.ShloMosaic Idealize.ShloMosaic.TcCoe Idealize.ShloMosaic.StableHlo Idealize.SL.Sem

variable (V : Valuation τ sig (Elt Ideal))

/-- The operations before the first product: the fold of the three lists in order. -/
abbrev first : Valuation τ sig (Elt Ideal) := after hostOps0_2 (after hostOps0_1 (after hostOps0 V))

/-! ### The first list, up to the degrees: the extended edge list and the number of edges into each node -/
theorem first1a_src : after (hostOps0.take 13) V (Proc.devRef .tc main_v5) = sources (V (Proc.devRef .tc main_arg1)) := rfl
theorem first1a_dst : after (hostOps0.take 13) V (Proc.devRef .tc main_v6) = targets (V (Proc.devRef .tc main_arg1)) := rfl
theorem first1a_deg : after (hostOps0.take 13) V (Proc.devRef .tc main_v10) = degree (targets (V (Proc.devRef .tc main_arg1))) := rfl
theorem first1a_arg0 : after (hostOps0.take 13) V (Proc.devRef .tc main_arg0) = V (Proc.devRef .tc main_arg0) := rfl
theorem first1a_arg2 : after (hostOps0.take 13) V (Proc.devRef .tc main_arg2) = V (Proc.devRef .tc main_arg2) := rfl
theorem first1a_arg3 : after (hostOps0.take 13) V (Proc.devRef .tc main_arg3) = V (Proc.devRef .tc main_arg3) := rfl
theorem first1a_arg4 : after (hostOps0.take 13) V (Proc.devRef .tc main_arg4) = V (Proc.devRef .tc main_arg4) := rfl
theorem first1a_arg5 : after (hostOps0.take 13) V (Proc.devRef .tc main_arg5) = V (Proc.devRef .tc main_arg5) := rfl
theorem first1a_arg6 : after (hostOps0.take 13) V (Proc.devRef .tc main_arg6) = V (Proc.devRef .tc main_arg6) := rfl
theorem first1a_arg7 : after (hostOps0.take 13) V (Proc.devRef .tc main_arg7) = V (Proc.devRef .tc main_arg7) := rfl
/-! ### The rest of the first list: where the degree is positive, and its inverse root -/
theorem first1b_pos : after (hostOps0.drop 13) V (Proc.devRef .tc main_v12) = positiveOf (V (Proc.devRef .tc main_v10)) := rfl
theorem first1b_rs : after (hostOps0.drop 13) V (Proc.devRef .tc main_v13) = rsqrtOf (V (Proc.devRef .tc main_v10)) := rfl
theorem first1b_z : after (hostOps0.drop 13) V (Proc.devRef .tc main_cst_2) = zeroScalar := rfl
theorem first1b_src : after (hostOps0.drop 13) V (Proc.devRef .tc main_v5) = V (Proc.devRef .tc main_v5) := rfl
theorem first1b_dst : after (hostOps0.drop 13) V (Proc.devRef .tc main_v6) = V (Proc.devRef .tc main_v6) := rfl
theorem first1b_arg0 : after (hostOps0.drop 13) V (Proc.devRef .tc main_arg0) = V (Proc.devRef .tc main_arg0) := rfl
theorem first1b_arg2 : after (hostOps0.drop 13) V (Proc.devRef .tc main_arg2) = V (Proc.devRef .tc main_arg2) := rfl
theorem first1b_arg3 : after (hostOps0.drop 13) V (Proc.devRef .tc main_arg3) = V (Proc.devRef .tc main_arg3) := rfl
theorem first1b_arg4 : after (hostOps0.drop 13) V (Proc.devRef .tc main_arg4) = V (Proc.devRef .tc main_arg4) := rfl
theorem first1b_arg5 : after (hostOps0.drop 13) V (Proc.devRef .tc main_arg5) = V (Proc.devRef .tc main_arg5) := rfl
theorem first1b_arg6 : after (hostOps0.drop 13) V (Proc.devRef .tc main_arg6) = V (Proc.devRef .tc main_arg6) := rfl
theorem first1b_arg7 : after (hostOps0.drop 13) V (Proc.devRef .tc main_arg7) = V (Proc.devRef .tc main_arg7) := rfl
/-! ### The second list: the inverse roots where the degree is positive -/
theorem first2_inv : after hostOps0_1 V (Proc.devRef .tc main_v14) = keepWhere (V (Proc.devRef .tc main_v12)) (V (Proc.devRef .tc main_v13)) (V (Proc.devRef .tc main_cst_2)) := rfl
theorem first2_src : after hostOps0_1 V (Proc.devRef .tc main_v5) = V (Proc.devRef .tc main_v5) := rfl
theorem first2_dst : after hostOps0_1 V (Proc.devRef .tc main_v6) = V (Proc.devRef .tc main_v6) := rfl
theorem first2_arg0 : after hostOps0_1 V (Proc.devRef .tc main_arg0) = V (Proc.devRef .tc main_arg0) := rfl
theorem first2_arg2 : after hostOps0_1 V (Proc.devRef .tc main_arg2) = V (Proc.devRef .tc main_arg2) := rfl
theorem first2_arg3 : after hostOps0_1 V (Proc.devRef .tc main_arg3) = V (Proc.devRef .tc main_arg3) := rfl
theorem first2_arg4 : after hostOps0_1 V (Proc.devRef .tc main_arg4) = V (Proc.devRef .tc main_arg4) := rfl
theorem first2_arg5 : after hostOps0_1 V (Proc.devRef .tc main_arg5) = V (Proc.devRef .tc main_arg5) := rfl
theorem first2_arg6 : after hostOps0_1 V (Proc.devRef .tc main_arg6) = V (Proc.devRef .tc main_arg6) := rfl
theorem first2_arg7 : after hostOps0_1 V (Proc.devRef .tc main_arg7) = V (Proc.devRef .tc main_arg7) := rfl
/-! ### The third list: the edges' weights -/
theorem first3_w : after hostOps0_2 V (Proc.devRef .tc main_v29) = weightsOf (V (Proc.devRef .tc main_v14)) (V (Proc.devRef .tc main_v5)) (V (Proc.devRef .tc main_v6)) := rfl
theorem first3_src : after hostOps0_2 V (Proc.devRef .tc main_v5) = V (Proc.devRef .tc main_v5) := rfl
theorem first3_dst : after hostOps0_2 V (Proc.devRef .tc main_v6) = V (Proc.devRef .tc main_v6) := rfl
theorem first3_arg0 : after hostOps0_2 V (Proc.devRef .tc main_arg0) = V (Proc.devRef .tc main_arg0) := rfl
theorem first3_arg2 : after hostOps0_2 V (Proc.devRef .tc main_arg2) = V (Proc.devRef .tc main_arg2) := rfl
theorem first3_arg3 : after hostOps0_2 V (Proc.devRef .tc main_arg3) = V (Proc.devRef .tc main_arg3) := rfl
theorem first3_arg4 : after hostOps0_2 V (Proc.devRef .tc main_arg4) = V (Proc.devRef .tc main_arg4) := rfl
theorem first3_arg5 : after hostOps0_2 V (Proc.devRef .tc main_arg5) = V (Proc.devRef .tc main_arg5) := rfl
theorem first3_arg6 : after hostOps0_2 V (Proc.devRef .tc main_arg6) = V (Proc.devRef .tc main_arg6) := rfl
theorem first3_arg7 : after hostOps0_2 V (Proc.devRef .tc main_arg7) = V (Proc.devRef .tc main_arg7) := rfl
/-! ### The three lists in order -/
theorem first_src : after hostOps0_2 (after hostOps0_1 (after hostOps0 V)) (Proc.devRef .tc main_v5) = sources (V (Proc.devRef .tc main_arg1)) := by
  rw [Cert.Fold.after_split 13 hostOps0, first3_src, first2_src, first1b_src, first1a_src]
theorem first_dst : after hostOps0_2 (after hostOps0_1 (after hostOps0 V)) (Proc.devRef .tc main_v6) = targets (V (Proc.devRef .tc main_arg1)) := by
  rw [Cert.Fold.after_split 13 hostOps0, first3_dst, first2_dst, first1b_dst, first1a_dst]
theorem first_w : after hostOps0_2 (after hostOps0_1 (after hostOps0 V)) (Proc.devRef .tc main_v29) = edgeWeights (sources (V (Proc.devRef .tc main_arg1))) (targets (V (Proc.devRef .tc main_arg1))) := by
  rw [Cert.Fold.after_split 13 hostOps0, first3_w, first2_inv, first2_src, first2_dst, first1b_pos, first1b_rs, first1b_z, first1b_src, first1b_dst, first1a_deg, first1a_src, first1a_dst]
  rfl
theorem first_arg0 : after hostOps0_2 (after hostOps0_1 (after hostOps0 V)) (Proc.devRef .tc main_arg0) = V (Proc.devRef .tc main_arg0) := by
  rw [Cert.Fold.after_split 13 hostOps0, first3_arg0, first2_arg0, first1b_arg0, first1a_arg0]
theorem first_arg2 : after hostOps0_2 (after hostOps0_1 (after hostOps0 V)) (Proc.devRef .tc main_arg2) = V (Proc.devRef .tc main_arg2) := by
  rw [Cert.Fold.after_split 13 hostOps0, first3_arg2, first2_arg2, first1b_arg2, first1a_arg2]
theorem first_arg3 : after hostOps0_2 (after hostOps0_1 (after hostOps0 V)) (Proc.devRef .tc main_arg3) = V (Proc.devRef .tc main_arg3) := by
  rw [Cert.Fold.after_split 13 hostOps0, first3_arg3, first2_arg3, first1b_arg3, first1a_arg3]
theorem first_arg4 : after hostOps0_2 (after hostOps0_1 (after hostOps0 V)) (Proc.devRef .tc main_arg4) = V (Proc.devRef .tc main_arg4) := by
  rw [Cert.Fold.after_split 13 hostOps0, first3_arg4, first2_arg4, first1b_arg4, first1a_arg4]
theorem first_arg5 : after hostOps0_2 (after hostOps0_1 (after hostOps0 V)) (Proc.devRef .tc main_arg5) = V (Proc.devRef .tc main_arg5) := by
  rw [Cert.Fold.after_split 13 hostOps0, first3_arg5, first2_arg5, first1b_arg5, first1a_arg5]
theorem first_arg6 : after hostOps0_2 (after hostOps0_1 (after hostOps0 V)) (Proc.devRef .tc main_arg6) = V (Proc.devRef .tc main_arg6) := by
  rw [Cert.Fold.after_split 13 hostOps0, first3_arg6, first2_arg6, first1b_arg6, first1a_arg6]
theorem first_arg7 : after hostOps0_2 (after hostOps0_1 (after hostOps0 V)) (Proc.devRef .tc main_arg7) = V (Proc.devRef .tc main_arg7) := by
  rw [Cert.Fold.after_split 13 hostOps0, first3_arg7, first2_arg7, first1b_arg7, first1a_arg7]

theorem first_sources : first V (Proc.devRef .tc main_v5) = sources (V (Proc.devRef .tc main_arg1)) := first_src V
theorem first_targets : first V (Proc.devRef .tc main_v6) = targets (V (Proc.devRef .tc main_arg1)) := first_dst V
theorem first_weights : first V (Proc.devRef .tc main_v29) = edgeWeights (sources (V (Proc.devRef .tc main_arg1))) (targets (V (Proc.devRef .tc main_arg1))) := first_w V

end Cert.KernelIdeal.States

end
-- ==== Proof.StretchSecond.lean ====
/-
  The host operations between the first pipelined product and the second, folded over any buffer contents: one round of
  message passing over the first product's rows, then the positive part. The list is read in two parts, cut after the
  sum into the targets' rows; each line reads one part's fold at one buffer.
-/
import proofs.«124308_j9466107920639_1_alg».proof.Proof.Gen.KernelIdeal.Launch
import proofs.«124308_j9466107920639_1_alg».proof.Proof.GraphOps
import proofs.«124308_j9466107920639_1_alg».proof.Proof.FoldSplit
import Idealize.ShloMosaic.Lib.StableHlo.Run

set_option maxRecDepth 65536

noncomputable section

namespace Cert.KernelIdeal.States

open Cert.KernelIdeal Cert.KernelIdeal.Gen Cert.KernelIdeal.Graph
open Idealize.ShloMosaic Idealize.ShloMosaic.TcCoe Idealize.ShloMosaic.StableHlo Idealize.SL.Sem

variable (V : Valuation τ sig (Elt Ideal))

/-- The operations between the first product and the second. -/
abbrev second : Valuation τ sig (Elt Ideal) := after hostOps1_1 (after hostOps1 V)

theorem second_a_rows : after (hostOps1.take 16) V (Proc.devRef .tc main_v43)
    = scatterRows (V (Proc.devRef .tc main_v30)) (V (Proc.devRef .tc main_v29)) (V (Proc.devRef .tc main_v5)) (V (Proc.devRef .tc main_v6)) := rfl
theorem second_a_arg3 : after (hostOps1.take 16) V (Proc.devRef .tc main_arg3) = V (Proc.devRef .tc main_arg3) := rfl
theorem second_a_v29 : after (hostOps1.take 16) V (Proc.devRef .tc main_v29) = V (Proc.devRef .tc main_v29) := rfl
theorem second_a_v5 : after (hostOps1.take 16) V (Proc.devRef .tc main_v5) = V (Proc.devRef .tc main_v5) := rfl
theorem second_a_v6 : after (hostOps1.take 16) V (Proc.devRef .tc main_v6) = V (Proc.devRef .tc main_v6) := rfl
theorem second_a_arg4 : after (hostOps1.take 16) V (Proc.devRef .tc main_arg4) = V (Proc.devRef .tc main_arg4) := rfl
theorem second_a_arg5 : after (hostOps1.take 16) V (Proc.devRef .tc main_arg5) = V (Proc.devRef .tc main_arg5) := rfl
theorem second_a_arg6 : after (hostOps1.take 16) V (Proc.devRef .tc main_arg6) = V (Proc.devRef .tc main_arg6) := rfl
theorem second_a_arg7 : after (hostOps1.take 16) V (Proc.devRef .tc main_arg7) = V (Proc.devRef .tc main_arg7) := rfl
theorem second_b_biased : after (hostOps1.drop 16) V (Proc.devRef .tc main_v46) = addBias (V (Proc.devRef .tc main_v43)) (V (Proc.devRef .tc main_arg3)) := rfl
theorem second_b_v29 : after (hostOps1.drop 16) V (Proc.devRef .tc main_v29) = V (Proc.devRef .tc main_v29) := rfl
theorem second_b_v5 : after (hostOps1.drop 16) V (Proc.devRef .tc main_v5) = V (Proc.devRef .tc main_v5) := rfl
theorem second_b_v6 : after (hostOps1.drop 16) V (Proc.devRef .tc main_v6) = V (Proc.devRef .tc main_v6) := rfl
theorem second_b_arg4 : after (hostOps1.drop 16) V (Proc.devRef .tc main_arg4) = V (Proc.devRef .tc main_arg4) := rfl
theorem second_b_arg5 : after (hostOps1.drop 16) V (Proc.devRef .tc main_arg5) = V (Proc.devRef .tc main_arg5) := rfl
theorem second_b_arg6 : after (hostOps1.drop 16) V (Proc.devRef .tc main_arg6) = V (Proc.devRef .tc main_arg6) := rfl
theorem second_b_arg7 : after (hostOps1.drop 16) V (Proc.devRef .tc main_arg7) = V (Proc.devRef .tc main_arg7) := rfl
theorem second_c_positive : after hostOps1_1 V (Proc.devRef .tc main_v47) = positivePart (V (Proc.devRef .tc main_v46)) := rfl
theorem second_c_v29 : after hostOps1_1 V (Proc.devRef .tc main_v29) = V (Proc.devRef .tc main_v29) := rfl
theorem second_c_v5 : after hostOps1_1 V (Proc.devRef .tc main_v5) = V (Proc.devRef .tc main_v5) := rfl
theorem second_c_v6 : after hostOps1_1 V (Proc.devRef .tc main_v6) = V (Proc.devRef .tc main_v6) := rfl
theorem second_c_arg4 : after hostOps1_1 V (Proc.devRef .tc main_arg4) = V (Proc.devRef .tc main_arg4) := rfl
theorem second_c_arg5 : after hostOps1_1 V (Proc.devRef .tc main_arg5) = V (Proc.devRef .tc main_arg5) := rfl
theorem second_c_arg6 : after hostOps1_1 V (Proc.devRef .tc main_arg6) = V (Proc.devRef .tc main_arg6) := rfl
theorem second_c_arg7 : after hostOps1_1 V (Proc.devRef .tc main_arg7) = V (Proc.devRef .tc main_arg7) := rfl

theorem second_hidden : second V (Proc.devRef .tc main_v47)
    = positivePart (aggregate (V (Proc.devRef .tc main_v30)) (V (Proc.devRef .tc main_v29)) (V (Proc.devRef .tc main_v5)) (V (Proc.devRef .tc main_v6)) (V (Proc.devRef .tc main_arg3))) := by
  rw [second, Cert.Fold.after_split 16 hostOps1, second_c_positive, second_b_biased, second_a_rows, second_a_arg3]
  rfl
theorem second_v29 : second V (Proc.devRef .tc main_v29) = V (Proc.devRef .tc main_v29) := by
  rw [second, Cert.Fold.after_split 16 hostOps1, second_c_v29, second_b_v29, second_a_v29]
theorem second_v5 : second V (Proc.devRef .tc main_v5) = V (Proc.devRef .tc main_v5) := by
  rw [second, Cert.Fold.after_split 16 hostOps1, second_c_v5, second_b_v5, second_a_v5]
theorem second_v6 : second V (Proc.devRef .tc main_v6) = V (Proc.devRef .tc main_v6) := by
  rw [second, Cert.Fold.after_split 16 hostOps1, second_c_v6, second_b_v6, second_a_v6]
theorem second_arg4 : second V (Proc.devRef .tc main_arg4) = V (Proc.devRef .tc main_arg4) := by
  rw [second, Cert.Fold.after_split 16 hostOps1, second_c_arg4, second_b_arg4, second_a_arg4]
theorem second_arg5 : second V (Proc.devRef .tc main_arg5) = V (Proc.devRef .tc main_arg5) := by
  rw [second, Cert.Fold.after_split 16 hostOps1, second_c_arg5, second_b_arg5, second_a_arg5]
theorem second_arg6 : second V (Proc.devRef .tc main_arg6) = V (Proc.devRef .tc main_arg6) := by
  rw [second, Cert.Fold.after_split 16 hostOps1, second_c_arg6, second_b_arg6, second_a_arg6]
theorem second_arg7 : second V (Proc.devRef .tc main_arg7) = V (Proc.devRef .tc main_arg7) := by
  rw [second, Cert.Fold.after_split 16 hostOps1, second_c_arg7, second_b_arg7, second_a_arg7]

end Cert.KernelIdeal.States

end
-- ==== Proof.StretchThird.lean ====
/-
  The host operations between the second pipelined product and the third, folded over any buffer contents: the second
  round of message passing over the second product's rows, and the bias vector reshaped to a row. The list is read in two
  parts, cut after the sum into the targets' rows; each line reads one part's fold at one buffer.
-/
import proofs.«124308_j9466107920639_1_alg».proof.Proof.Gen.KernelIdeal.Launch
import proofs.«124308_j9466107920639_1_alg».proof.Proof.GraphOps
import proofs.«124308_j9466107920639_1_alg».proof.Proof.FoldSplit
import Idealize.ShloMosaic.Lib.StableHlo.Run

set_option maxRecDepth 65536

noncomputable section

namespace Cert.KernelIdeal.States

open Cert.KernelIdeal Cert.KernelIdeal.Gen Cert.KernelIdeal.Graph
open Idealize.ShloMosaic Idealize.ShloMosaic.TcCoe Idealize.ShloMosaic.StableHlo Idealize.SL.Sem

variable (V : Valuation τ sig (Elt Ideal))

/-- The operations between the second product and the third. -/
abbrev third : Valuation τ sig (Elt Ideal) := after hostOps2 V

theorem third_a_rows : after (hostOps2.take 16) V (Proc.devRef .tc main_v61)
    = scatterRows (V (Proc.devRef .tc main_v48)) (V (Proc.devRef .tc main_v29)) (V (Proc.devRef .tc main_v5)) (V (Proc.devRef .tc main_v6)) := rfl
theorem third_a_arg5 : after (hostOps2.take 16) V (Proc.devRef .tc main_arg5) = V (Proc.devRef .tc main_arg5) := rfl
theorem third_a_arg6 : after (hostOps2.take 16) V (Proc.devRef .tc main_arg6) = V (Proc.devRef .tc main_arg6) := rfl
theorem third_a_arg7 : after (hostOps2.take 16) V (Proc.devRef .tc main_arg7) = V (Proc.devRef .tc main_arg7) := rfl
theorem third_b_biased : after (hostOps2.drop 16) V (Proc.devRef .tc main_v64) = addBias (V (Proc.devRef .tc main_v61)) (V (Proc.devRef .tc main_arg5)) := rfl
theorem third_b_bias : after (hostOps2.drop 16) V (Proc.devRef .tc main_v65) = shapeCast S1x40 (V (Proc.devRef .tc main_arg7)) shapeCasts_S40_S1x40 := rfl
theorem third_b_arg6 : after (hostOps2.drop 16) V (Proc.devRef .tc main_arg6) = V (Proc.devRef .tc main_arg6) := rfl

theorem third_rows : third V (Proc.devRef .tc main_v64)
    = aggregate (V (Proc.devRef .tc main_v48)) (V (Proc.devRef .tc main_v29)) (V (Proc.devRef .tc main_v5)) (V (Proc.devRef .tc main_v6)) (V (Proc.devRef .tc main_arg5)) := by
  rw [third, Cert.Fold.after_split 16 hostOps2, third_b_biased, third_a_rows, third_a_arg5]
  rfl
theorem third_bias : third V (Proc.devRef .tc main_v65) = shapeCast S1x40 (V (Proc.devRef .tc main_arg7)) shapeCasts_S40_S1x40 := by
  rw [third, Cert.Fold.after_split 16 hostOps2, third_b_bias, third_a_arg7]
theorem third_arg6 : third V (Proc.devRef .tc main_arg6) = V (Proc.devRef .tc main_arg6) := by
  rw [third, Cert.Fold.after_split 16 hostOps2, third_b_arg6, third_a_arg6]

end Cert.KernelIdeal.States

end
-- ==== Proof.BlockProduct.lean ====
/-
  What one grid point's body leaves in its output block, read entry by entry over the extended reals.

  Each of the three kernels multiplies a 5000-row block of its left operand by the whole right operand on the matrix
  unit, into a zero accumulator: entry (r, c) of the block is the sum over k < 128 of left (r, k) · right (k, c).
  The roundings to bf16 on the way in are the identity on extended reals, and so is the cast of a block to its own
  shape. The third kernel then adds the bias row: entry (r, c) gains bias (0, c).
-/
import proofs.«124308_j9466107920639_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.TcCoe

/-! ## A 5000×128 block times a 128×128 matrix -/

/-- Entry (row of `j`, `k`) of the left block. -/
abbrev leftAt (j : S5000x128.Idx) (k : Fin 128) : S5000x128.Idx := fun a => match a with
  | ⟨0, _⟩ => ⟨(j 0).val, (j 0).isLt⟩
  | ⟨1, _⟩ => ⟨k.val, k.isLt⟩
/-- Entry (`k`, column of `j`) of the right matrix. -/
abbrev rightAt (j : S5000x128.Idx) (k : Fin 128) : S128x128.Idx := fun a => match a with
  | ⟨0, _⟩ => ⟨k.val, k.isLt⟩
  | ⟨1, _⟩ => ⟨(j 1).val, (j 1).isLt⟩

theorem left_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem left_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem right_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem right_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product of a block and a matrix into a zero accumulator, at entry `j`: the sum over the 128
    contracted positions. -/
theorem product_apply (x : FVec Ideal S5000x128 .f32) (w : FVec Ideal S128x128 .f32) (j : S5000x128.Idx) :
    matmul (F := Ideal) dot_S5000x128_S128x128_S5000x128_1_0_0_1_n_n none x w (constant S5000x128 .f32 0x00000000#32) j
      = ∑ k : Fin 128, x (leftAt j k) * w (rightAt j k) := by
  show FloatOps.matmul dot_S5000x128_S128x128_S5000x128_1_0_0_1_n_n none x w (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = leftAt j k := funext fun a => Fin.ext (by
    match a with
    | ⟨0, _⟩ => exact left_row _ _
    | ⟨1, _⟩ => exact (left_col _ _).trans hk)
  have er : dot_S5000x128_S128x128_S5000x128_1_0_0_1_n_n.rhsIdx j ((ValueIdx.contrEquiv1 dot_S5000x128_S128x128_S5000x128_1_0_0_1_n_n 128 rfl rfl).symm k) = rightAt j k := funext fun a => Fin.ext (by
    match a with
    | ⟨0, _⟩ => exact (right_row _ _).trans hk
    | ⟨1, _⟩ => exact right_col _ _)
  rw [el, er]

/-- The first kernel's stored value at entry `j`. -/
theorem first_apply (x : Vec Ideal S5000x128 .f32) (w : Vec Ideal S128x128 .f32) (j : S5000x128.Idx) :
    k0_pay1 (F := Ideal) x w j = ∑ k : Fin 128, x (leftAt j k) * w (rightAt j k) :=
  product_apply x w j

/-- The second kernel's stored value at entry `j`: the same product (the block is first cast to its own shape). -/
theorem second_apply (x : Vec Ideal S5000x128 .f32) (w : Vec Ideal S128x128 .f32) (j : S5000x128.Idx) :
    k1_pay1 (F := Ideal) x w j = ∑ k : Fin 128, x (leftAt j k) * w (rightAt j k) := by
  unfold k1_pay1
  rw [shapeCast_self]
  exact product_apply x w j

/-! ## A 5000×128 block times a 128×40 matrix, plus a bias row -/

/-- Entry (row of `j`, `k`) of the left block. -/
abbrev leftAt' (j : S5000x40.Idx) (k : Fin 128) : S5000x128.Idx := fun a => match a with
  | ⟨0, _⟩ => ⟨(j 0).val, (j 0).isLt⟩
  | ⟨1, _⟩ => ⟨k.val, k.isLt⟩
/-- Entry (`k`, column of `j`) of the right matrix. -/
abbrev rightAt' (j : S5000x40.Idx) (k : Fin 128) : S128x40.Idx := fun a => match a with
  | ⟨0, _⟩ => ⟨k.val, k.isLt⟩
  | ⟨1, _⟩ => ⟨(j 1).val, (j 1).isLt⟩
/-- Entry (0, column of `j`) of the bias row. -/
abbrev biasAt (j : S5000x40.Idx) : S1x40.Idx := fun a => match a with
  | ⟨0, _⟩ => ⟨0, Nat.one_pos⟩
  | ⟨1, _⟩ => ⟨(j 1).val, (j 1).isLt⟩

theorem left_row' (j : S5000x40.Idx) (q : dot_S5000x128_S128x40_S5000x40_1_0_0_1_n_n.contr.Idx) :
    (dot_S5000x128_S128x40_S5000x40_1_0_0_1_n_n.lhsIdx j q 0).val = (j 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem left_col' (j : S5000x40.Idx) (q : dot_S5000x128_S128x40_S5000x40_1_0_0_1_n_n.contr.Idx) :
    (dot_S5000x128_S128x40_S5000x40_1_0_0_1_n_n.lhsIdx j q 1).val = (q ⟨0, by decide⟩).val :=
  dot_S5000x128_S128x40_S5000x40_1_0_0_1_n_n.lhsIdx_val_of_single rfl j q
theorem right_row' (j : S5000x40.Idx) (q : dot_S5000x128_S128x40_S5000x40_1_0_0_1_n_n.contr.Idx) :
    (dot_S5000x128_S128x40_S5000x40_1_0_0_1_n_n.rhsIdx j q 0).val = (q ⟨0, by decide⟩).val :=
  dot_S5000x128_S128x40_S5000x40_1_0_0_1_n_n.rhsIdx_val_of_single rfl j q
theorem right_col' (j : S5000x40.Idx) (q : dot_S5000x128_S128x40_S5000x40_1_0_0_1_n_n.contr.Idx) :
    (dot_S5000x128_S128x40_S5000x40_1_0_0_1_n_n.rhsIdx j q 1).val = (j 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The matrix unit's product of a block and the 128×40 matrix into a zero accumulator, at entry `j`. -/
theorem product_apply' (x : FVec Ideal S5000x128 .f32) (w : FVec Ideal S128x40 .f32) (j : S5000x40.Idx) :
    matmul (F := Ideal) dot_S5000x128_S128x40_S5000x40_1_0_0_1_n_n none x w (constant S5000x40 .f32 0x00000000#32) j
      = ∑ k : Fin 128, x (leftAt' j k) * w (rightAt' j k) := by
  show FloatOps.matmul dot_S5000x128_S128x40_S5000x40_1_0_0_1_n_n none x w (constant S5000x40 .f32 0x00000000#32) j = _
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx j ((ValueIdx.contrEquiv1 dot_S5000x128_S128x40_S5000x40_1_0_0_1_n_n 128 rfl rfl).symm k) = leftAt' j k := funext fun a => Fin.ext (by
    match a with
    | ⟨0, _⟩ => exact left_row' _ _
    | ⟨1, _⟩ => exact (left_col' _ _).trans hk)
  have er : dot_S5000x128_S128x40_S5000x40_1_0_0_1_n_n.rhsIdx j ((ValueIdx.contrEquiv1 dot_S5000x128_S128x40_S5000x40_1_0_0_1_n_n 128 rfl rfl).symm k) = rightAt' j k := funext fun a => Fin.ext (by
    match a with
    | ⟨0, _⟩ => exact (right_row' _ _).trans hk
    | ⟨1, _⟩ => exact right_col' _ _)
  rw [el, er]

/-- The bias row broadcast down the block's rows, at entry `j`: the row's entry in `j`'s column. -/
theorem bias_apply (b : Vec Ideal S1x40 .f32) (j : S5000x40.Idx) :
    broadcastTo S5000x40 (shapeCast S1x40 b shapeCasts_S1x40_S1x40) broadcasts_S1x40_S5000x40 j = b (biasAt j) := by
  rw [shapeCast_self]
  refine broadcastTo_apply b _ j (biasAt j) fun a => ?_
  match a with
  | ⟨0, _⟩ => rfl
  | ⟨1, _⟩ => rfl

/-- The third kernel's stored value at entry `j`: the product plus the bias row's entry. -/
theorem third_apply (x : Vec Ideal S5000x128 .f32) (w : Vec Ideal S128x40 .f32) (b : Vec Ideal S1x40 .f32) (j : S5000x40.Idx) :
    k2_pay1 (F := Ideal) x w b j = (∑ k : Fin 128, x (leftAt' j k) * w (rightAt' j k)) + b (biasAt j) := by
  unfold k2_pay1
  rw [shapeCast_self]
  show FloatOps.addf (matmul (F := Ideal) dot_S5000x128_S128x40_S5000x40_1_0_0_1_n_n none x w (constant S5000x40 .f32 0x00000000#32) j)
      (broadcastTo S5000x40 (shapeCast S1x40 b shapeCasts_S1x40_S1x40) broadcasts_S1x40_S5000x40 j) = _
  exact congrArg₂ (fun u v : EReal => u + v) (product_apply' x w j) (bias_apply b j)

end Cert.KernelIdeal.BlockProduct

end
-- ==== Proof.RegionArrays.lean ====
/-
  What each of the three pipelined products leaves in its result array, as one function of the arrays the region
  finds at its entry — whatever those arrays are.

  A region walks ten grid points; point t multiplies rows 5000·t … 5000·t + 4999 of the left array by the whole right
  matrix and writes the product back to the same rows of the result. The ten row blocks tile the 50000 rows, so after
  the last point entry (r, c) of the result is the sum over k < 128 of left (r, k) · right (k, c) — in the third region
  plus the bias row's entry (0, c).
-/
import proofs.«124308_j9466107920639_1_alg».proof.Proof.Gen.KernelIdeal.Frame
import proofs.«124308_j9466107920639_1_alg».proof.Proof.BlockProduct
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.RegionArrays

open Cert.KernelIdeal Cert.KernelIdeal.Gen Cert.KernelIdeal.BlockProduct

variable (V : (c : Dev nD) → (b : Ref sig .tc) → Buf (Elt Ideal) ((c : Thread nD τ).loc b))

theorem hz : (![0, 0] : Fin 2 → Nat) = fun _ => 0 := funext fun a => by fin_cases a <;> rfl

/-! ## The whole-array products -/

/-- Entry (row of `i`, `k`) of a 50000×128 array. -/
abbrev rowAt (i : S50000x128.Idx) (k : Fin 128) : S50000x128.Idx := fun a => match a with
  | ⟨0, _⟩ => ⟨(i 0).val, (i 0).isLt⟩
  | ⟨1, _⟩ => ⟨k.val, k.isLt⟩
/-- Entry (`k`, column of `i`) of a 128×128 matrix. -/
abbrev colAt (i : S50000x128.Idx) (k : Fin 128) : S128x128.Idx := fun a => match a with
  | ⟨0, _⟩ => ⟨k.val, k.isLt⟩
  | ⟨1, _⟩ => ⟨(i 1).val, (i 1).isLt⟩
/-- Entry (row of `i`, `k`) of a 50000×128 array, for an entry `i` of a 50000×40 one. -/
abbrev rowAt' (i : S50000x40.Idx) (k : Fin 128) : S50000x128.Idx := fun a => match a with
  | ⟨0, _⟩ => ⟨(i 0).val, (i 0).isLt⟩
  | ⟨1, _⟩ => ⟨k.val, k.isLt⟩
/-- Entry (`k`, column of `i`) of a 128×40 matrix. -/
abbrev colAt' (i : S50000x40.Idx) (k : Fin 128) : S128x40.Idx := fun a => match a with
  | ⟨0, _⟩ => ⟨k.val, k.isLt⟩
  | ⟨1, _⟩ => ⟨(i 1).val, (i 1).isLt⟩
/-- Entry (0, column of `i`) of a 1×40 row. -/
abbrev biasOf (i : S50000x40.Idx) : S1x40.Idx := fun a => match a with
  | ⟨0, _⟩ => ⟨0, Nat.one_pos⟩
  | ⟨1, _⟩ => ⟨(i 1).val, (i 1).isLt⟩

/-- A 50000×128 array times a 128×128 matrix, entry by entry. -/
def product (A : Vec Ideal S50000x128 .f32) (B : Vec Ideal S128x128 .f32) : Vec Ideal S50000x128 .f32 :=
  fun i => ∑ k : Fin 128, A (rowAt i k) * B (colAt i k)

/-- A 50000×128 array times a 128×40 matrix plus a bias row, entry by entry. -/
def productBias (A : Vec Ideal S50000x128 .f32) (B : Vec Ideal S128x40 .f32) (b : Vec Ideal S1x40 .f32) : Vec Ideal S50000x40 .f32 :=
  fun i => (∑ k : Fin 128, A (rowAt' i k) * B (colAt' i k)) + b (biasOf i)

/-! ## The first region: the node features times the first weight matrix -/

/-- Where the windows' blocks sit at point `t`: the left block and the result block on row block `t`, the right
    matrix whole. Decided over the ten points. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole-array product. -/
theorem flushed0 (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := blocks0 t
  funext j
  show k0_pay1 (F := Ideal) (iblk0 V c 0 t : Vec Ideal S5000x128 .f32) (iblk0 V c 1 t : Vec Ideal S128x128 .f32) j
    = product (V c main_arg0) (V c main_arg2) (((cfg0.win 2).blk t).view.emb j)
  refine (first_apply (iblk0 V c 0 t : Vec Ideal S5000x128 .f32) (iblk0 V c 1 t : Vec Ideal S128x128 .f32) j).trans ?_
  unfold product
  refine Finset.sum_congr rfl fun k _ => ?_
  have hj0 : (j 0).val < 5000 := (j 0).isLt
  have hj1 : (j 1).val < 128 := (j 1).isLt
  have hl : (iblk0 V c 0 t : Vec Ideal S5000x128 .f32) (leftAt j k) = (V c main_arg0 : Vec Ideal S50000x128 .f32) (rowAt (((cfg0.win 2).blk t).view.emb j) k) := by
    show (V c main_arg0 : Vec Ideal S50000x128 .f32) (((cfg0.win 0).blk t).view.emb (leftAt j k)) = _
    refine congrArg (V c main_arg0 : Vec Ideal S50000x128 .f32) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hr : (iblk0 V c 1 t : Vec Ideal S128x128 .f32) (rightAt j k) = (V c main_arg2 : Vec Ideal S128x128 .f32) (colAt (((cfg0.win 2).blk t).view.emb j) k) := by
    show (V c main_arg2 : Vec Ideal S128x128 .f32) (((cfg0.win 1).blk t).view.emb (rightAt j k)) = _
    refine congrArg (V c main_arg2 : Vec Ideal S128x128 .f32) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hl, hr]

/-- An entry of the result array is in point `t`'s block iff its row is in row block `t`. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry of the result array is in some point's block: row r is in row block r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by rw [show cfg0.N = 10 from N_0]; omega⟩, flush0_2 _, ?_⟩
  rw [mem_blk0]
  obtain ⟨-, -, -, -, e4, e5⟩ := blocks0 ⟨(i 0).val / 5000, by rw [show cfg0.N = 10 from N_0]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 128 ≤ (i 1).val ∧ (i 1).val < win0_2.index _ (1 : Fin 2) * 128 + 128; rw [e5]; omega

/-- After the first region its result array holds the product of the two arrays it was entered with. -/
theorem array0 (c : Dev nD) : (dat0 V c).arrAt 2 cfg0.N = product (V c main_arg0) (V c main_arg2) :=
  (dat0 V c).arrAt_eq_of_cover 2 (product (V c main_arg0) (V c main_arg2)) (fun t _ => flushed0 V c t) cover0

/-! ## The second region: the hidden rows times the second weight matrix -/

/-- Where the windows' blocks sit at point `t`: the left block and the result block on row block `t`, the right
    matrix whole. Decided over the ten points. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array product. -/
theorem flushed1 (c : Dev nD) (t : Fin cfg1.N) :
    (dat1 V c).flushed 2 t = ((cfg1.win 2).blk t).view.read (Elt Ideal) (product (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := blocks1 t
  funext j
  show k1_pay1 (F := Ideal) (iblk1 V c 0 t : Vec Ideal S5000x128 .f32) (iblk1 V c 1 t : Vec Ideal S128x128 .f32) j
    = product (V c main_v47) (V c main_arg4) (((cfg1.win 2).blk t).view.emb j)
  refine (second_apply (iblk1 V c 0 t : Vec Ideal S5000x128 .f32) (iblk1 V c 1 t : Vec Ideal S128x128 .f32) j).trans ?_
  unfold product
  refine Finset.sum_congr rfl fun k _ => ?_
  have hj0 : (j 0).val < 5000 := (j 0).isLt
  have hj1 : (j 1).val < 128 := (j 1).isLt
  have hl : (iblk1 V c 0 t : Vec Ideal S5000x128 .f32) (leftAt j k) = (V c main_v47 : Vec Ideal S50000x128 .f32) (rowAt (((cfg1.win 2).blk t).view.emb j) k) := by
    show (V c main_v47 : Vec Ideal S50000x128 .f32) (((cfg1.win 0).blk t).view.emb (leftAt j k)) = _
    refine congrArg (V c main_v47 : Vec Ideal S50000x128 .f32) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hr : (iblk1 V c 1 t : Vec Ideal S128x128 .f32) (rightAt j k) = (V c main_arg4 : Vec Ideal S128x128 .f32) (colAt (((cfg1.win 2).blk t).view.emb j) k) := by
    show (V c main_arg4 : Vec Ideal S128x128 .f32) (((cfg1.win 1).blk t).view.emb (rightAt j k)) = _
    refine congrArg (V c main_arg4 : Vec Ideal S128x128 .f32) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [hl, hr]

/-- An entry of the result array is in point `t`'s block iff its row is in row block `t`. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Every entry of the result array is in some point's block: row r is in row block r / 5000. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  refine ⟨⟨(i 0).val / 5000, by rw [show cfg1.N = 10 from N_1]; omega⟩, flush1_2 _, ?_⟩
  rw [mem_blk1]
  obtain ⟨-, -, -, -, e4, e5⟩ := blocks1 ⟨(i 0).val / 5000, by rw [show cfg1.N = 10 from N_1]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ _ ∧ _ < (i 0).val / 5000 * 5000 + 5000; omega
  | ⟨1, _⟩ => show win1_2.index _ (1 : Fin 2) * 128 ≤ (i 1).val ∧ (i 1).val < win1_2.index _ (1 : Fin 2) * 128 + 128; rw [e5]; omega

/-- After the second region its result array holds the product of the two arrays it was entered with. -/
theorem array1 (c : Dev nD) : (dat1 V c).arrAt 2 cfg1.N = product (V c main_v47) (V c main_arg4) :=
  (dat1 V c).arrAt_eq_of_cover 2 (product (V c main_v47) (V c main_arg4)) (fun t _ => flushed1 V c t) cover1

/-! ## The third region: the output rows times the classifier matrix, plus its bias -/

/-- Where the windows' blocks sit at point `t`: the left block and the result block on row block `t`, the matrix and
    the bias row whole. Decided over the ten points. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the whole-array product plus bias. -/
theorem flushed2 (c : Dev nD) (t : Fin cfg2.N) :
    (dat2 V c).flushed 3 t = ((cfg2.win 3).blk t).view.read (Elt Ideal) (productBias (V c main_v64) (V c main_arg6) (V c main_v65)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x40) hz, View.ld_unit_zero (S := S1x40) hz]
  obtain ⟨e0, e1, e2, e3, e4, e5, e6, e7⟩ := blocks2 t
  funext j
  show k2_pay1 (F := Ideal) (iblk2 V c 0 t : Vec Ideal S5000x128 .f32) (iblk2 V c 1 t : Vec Ideal S128x40 .f32) (iblk2 V c 2 t : Vec Ideal S1x40 .f32) j
    = productBias (V c main_v64) (V c main_arg6) (V c main_v65) (((cfg2.win 3).blk t).view.emb j)
  refine (third_apply (iblk2 V c 0 t : Vec Ideal S5000x128 .f32) (iblk2 V c 1 t : Vec Ideal S128x40 .f32) (iblk2 V c 2 t : Vec Ideal S1x40 .f32) j).trans ?_
  unfold productBias
  have hj0 : (j 0).val < 5000 := (j 0).isLt
  have hj1 : (j 1).val < 40 := (j 1).isLt
  have hb : (iblk2 V c 2 t : Vec Ideal S1x40 .f32) (biasAt j) = (V c main_v65 : Vec Ideal S1x40 .f32) (biasOf (((cfg2.win 3).blk t).view.emb j)) := by
    show (V c main_v65 : Vec Ideal S1x40 .f32) (((cfg2.win 2).blk t).view.emb (biasAt j)) = _
    refine congrArg (V c main_v65 : Vec Ideal S1x40 .f32) (funext fun a => Fin.ext ?_)
    match a with
    | ⟨0, _⟩ => show win2_2.index t (0 : Fin 2) * 1 + 1 * 0 = 0; omega
    | ⟨1, _⟩ => show win2_2.index t (1 : Fin 2) * 40 + 1 * (j 1).val = win2_3.index t (1 : Fin 2) * 40 + 1 * (j 1).val; omega
  rw [hb]
  refine congrArg (fun u : EReal => u + (V c main_v65 : Vec Ideal S1x40 .f32) (biasOf (((cfg2.win 3).blk t).view.emb j))) ?_
  refine Finset.sum_congr rfl fun k _ => ?_
  have hl : (iblk2 V c 0 t : Vec Ideal S5000x128 .f32) (leftAt' j k) = (V c main_v64 : Vec Ideal S50000x128 .f32) (rowAt' (((cfg2.win 3).blk t).view.emb j) k) := by
    show (V c main_v64 : Vec Ideal S50000x128 .f32) (((cfg2.win 0).blk t).view.emb (leftAt' j k)) = _
    refine congrArg (V c main_v64 : Vec Ideal S50000x128 .f32) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have hr : (iblk2 V c 1 t : Vec Ideal S128x40 .f32) (rightAt' j k) = (V c main_arg6 : Vec Ideal S128x40 .f32) (colAt' (((cfg2.win 3).blk t).view.emb j) k) := by
    show (V c main_arg6 : Vec Ideal S128x40 .f32) (((cfg2.win 1).blk t).view.emb (rightAt' j k)) = _
    refine congrArg (V c main_arg6 : Vec Ideal S128x40 .f32) (funext fun a => Fin.ext ?_)
    match a with
    | ⟨0, _⟩ => show win2_1.index t (0 : Fin 2) * 128 + 1 * k.val = k.val; omega
    | ⟨1, _⟩ => show win2_1.index t (1 : Fin 2) * 40 + 1 * (j 1).val = win2_3.index t (1 : Fin 2) * 40 + 1 * (j 1).val; omega
  rw [hl, hr]

/-- An entry of the result array is in point `t`'s block iff its row is in row block `t`. -/
theorem mem_blk2 (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v66).slice (win2_3.rect t)).set ↔ _
  rw [View.set_slice_whole, Rect.mem_set_unit]
  exact Iff.rfl

/-- Every entry of the result array is in some point's block: row r is in row block r / 5000. -/
theorem cover2 (i : S50000x40.Idx) : ∃ t : Fin cfg2.N, (cfg2.win 3).flush t = true ∧ i ∈ ((cfg2.win 3).blk t).view.set := by
  have hi0 : (i 0).val < 50000 := (i 0).isLt
  have hi1 : (i 1).val < 40 := (i 1).isLt
  refine ⟨⟨(i 0).val / 5000, by rw [show cfg2.N = 10 from N_2]; omega⟩, flush2_3 _, ?_⟩
  rw [mem_blk2]
  obtain ⟨-, -, -, -, -, -, e6, e7⟩ := blocks2 ⟨(i 0).val / 5000, by rw [show cfg2.N = 10 from N_2]; omega⟩
  intro a
  match a with
  | ⟨0, _⟩ => show win2_3.index _ (0 : Fin 2) * 5000 ≤ (i 0).val ∧ (i 0).val < win2_3.index _ (0 : Fin 2) * 5000 + 5000; rw [e6]; show (i 0).val / 5000 * 5000 ≤ _ ∧ _ < (i 0).val / 5000 * 5000 + 5000; omega
  | ⟨1, _⟩ => show win2_3.index _ (1 : Fin 2) * 40 ≤ (i 1).val ∧ (i 1).val < win2_3.index _ (1 : Fin 2) * 40 + 40; rw [e7]; omega

/-- After the third region its result array holds the product of the two arrays it was entered with, plus the bias row. -/
theorem array2 (c : Dev nD) : (dat2 V c).arrAt 3 cfg2.N = productBias (V c main_v64) (V c main_arg6) (V c main_v65) :=
  (dat2 V c).arrAt_eq_of_cover 3 (productBias (V c main_v64) (V c main_arg6) (V c main_v65)) (fun t _ => flushed2 V c t) cover2

end Cert.KernelIdeal.RegionArrays

end
-- ==== Proof.KernelStates.lean ====
/-
  The idealized kernel's buffers, boundary by boundary, as functions of the launch contents.

  Between the launch and the return the program alternates stretches of host operations with the three pipelined
  products. A stretch is a fold of its operations over the contents it starts from; a region replaces its result array
  and leaves every other buffer alone. Reading the fold at the buffers the next segment uses, one boundary after the
  other, gives the result array as: the third product (with bias) of the second round of message passing over the
  second product of the positive part of the first round over the first product of the arguments.
-/
import proofs.«124308_j9466107920639_1_alg».proof.Proof.Gen.KernelIdeal.Frame
import proofs.«124308_j9466107920639_1_alg».proof.Proof.GraphOps
import proofs.«124308_j9466107920639_1_alg».proof.Proof.StretchFirst
import proofs.«124308_j9466107920639_1_alg».proof.Proof.StretchSecond
import proofs.«124308_j9466107920639_1_alg».proof.Proof.StretchThird
import proofs.«124308_j9466107920639_1_alg».proof.Proof.RegionArrays
import Idealize.ShloMosaic.Lib.StableHlo.Run

set_option maxRecDepth 16384

noncomputable section

namespace Cert.KernelIdeal.States

open Cert.KernelIdeal Cert.KernelIdeal.Gen Cert.KernelIdeal.Graph Cert.KernelIdeal.RegionArrays
open Idealize.ShloMosaic Idealize.ShloMosaic.TcCoe Idealize.ShloMosaic.StableHlo Idealize.SL.Sem

/-! ## The boundaries of the run -/

variable (m : (ℓ : Loc nD τ sig) → Buf (Elt Ideal) ℓ) (ρ : Dev nD → PrngReg) (c : Dev nD)

/-- The extended edges' sources, targets and weights, of the launched edge list. -/
abbrev src : Ends := sources (m ((c.tc : Thread nD τ).loc main_arg1))
abbrev tgt : Ends := targets (m ((c.tc : Thread nD τ).loc main_arg1))
abbrev wts : Weights := edgeWeights (src m c) (tgt m c)

/-! ### At the first region's entry -/
theorem W3_v5 : W3 m ρ c (Proc.devRef .tc main_v5) = src m c := first_sources (W0 m ρ c)
theorem W3_v6 : W3 m ρ c (Proc.devRef .tc main_v6) = tgt m c := first_targets (W0 m ρ c)
theorem W3_v29 : W3 m ρ c (Proc.devRef .tc main_v29) = wts m c := first_weights (W0 m ρ c)
theorem W3_arg0 : W3 m ρ c (Proc.devRef .tc main_arg0) = m ((c.tc : Thread nD τ).loc main_arg0) := first_arg0 (W0 m ρ c)
theorem W3_arg2 : W3 m ρ c (Proc.devRef .tc main_arg2) = m ((c.tc : Thread nD τ).loc main_arg2) := first_arg2 (W0 m ρ c)
theorem W3_arg3 : W3 m ρ c (Proc.devRef .tc main_arg3) = m ((c.tc : Thread nD τ).loc main_arg3) := first_arg3 (W0 m ρ c)
theorem W3_arg4 : W3 m ρ c (Proc.devRef .tc main_arg4) = m ((c.tc : Thread nD τ).loc main_arg4) := first_arg4 (W0 m ρ c)
theorem W3_arg5 : W3 m ρ c (Proc.devRef .tc main_arg5) = m ((c.tc : Thread nD τ).loc main_arg5) := first_arg5 (W0 m ρ c)
theorem W3_arg6 : W3 m ρ c (Proc.devRef .tc main_arg6) = m ((c.tc : Thread nD τ).loc main_arg6) := first_arg6 (W0 m ρ c)
theorem W3_arg7 : W3 m ρ c (Proc.devRef .tc main_arg7) = m ((c.tc : Thread nD τ).loc main_arg7) := first_arg7 (W0 m ρ c)

/-! ### At the first region's exit -/
/-- The first product. -/
abbrev h1 : Features := product (m ((c.tc : Thread nD τ).loc main_arg0)) (m ((c.tc : Thread nD τ).loc main_arg2))
theorem W4_v30 : W4 m ρ c (Proc.devRef .tc main_v30) = h1 m c :=
  (W4_arr m ρ c 2).trans ((array0 (V3 m ρ) c).trans (congrArg₂ product (W3_arg0 m ρ c) (W3_arg2 m ρ c)))
theorem W4_v29 : W4 m ρ c (Proc.devRef .tc main_v29) = wts m c :=
  (W4_of_ne m ρ c main_v29 (by decide)).trans (W3_v29 m ρ c)
theorem W4_v5 : W4 m ρ c (Proc.devRef .tc main_v5) = src m c :=
  (W4_of_ne m ρ c main_v5 (by decide)).trans (W3_v5 m ρ c)
theorem W4_v6 : W4 m ρ c (Proc.devRef .tc main_v6) = tgt m c :=
  (W4_of_ne m ρ c main_v6 (by decide)).trans (W3_v6 m ρ c)
theorem W4_arg3 : W4 m ρ c (Proc.devRef .tc main_arg3) = m ((c.tc : Thread nD τ).loc main_arg3) :=
  (W4_of_ne m ρ c main_arg3 (by decide)).trans (W3_arg3 m ρ c)
theorem W4_arg4 : W4 m ρ c (Proc.devRef .tc main_arg4) = m ((c.tc : Thread nD τ).loc main_arg4) :=
  (W4_of_ne m ρ c main_arg4 (by decide)).trans (W3_arg4 m ρ c)
theorem W4_arg5 : W4 m ρ c (Proc.devRef .tc main_arg5) = m ((c.tc : Thread nD τ).loc main_arg5) :=
  (W4_of_ne m ρ c main_arg5 (by decide)).trans (W3_arg5 m ρ c)
theorem W4_arg6 : W4 m ρ c (Proc.devRef .tc main_arg6) = m ((c.tc : Thread nD τ).loc main_arg6) :=
  (W4_of_ne m ρ c main_arg6 (by decide)).trans (W3_arg6 m ρ c)
theorem W4_arg7 : W4 m ρ c (Proc.devRef .tc main_arg7) = m ((c.tc : Thread nD τ).loc main_arg7) :=
  (W4_of_ne m ρ c main_arg7 (by decide)).trans (W3_arg7 m ρ c)

/-! ### At the second region's entry -/
/-- The hidden rows: the positive part of the first round of message passing over the first product. -/
abbrev hidden : Features := positivePart (aggregate (h1 m c) (wts m c) (src m c) (tgt m c) (m ((c.tc : Thread nD τ).loc main_arg3)))
theorem W6_v47 : W6 m ρ c (Proc.devRef .tc main_v47) = hidden m c :=
  (second_hidden (W4 m ρ c)).trans (by rw [W4_v30, W4_v29, W4_v5, W4_v6, W4_arg3])
theorem W6_v29 : W6 m ρ c (Proc.devRef .tc main_v29) = wts m c :=
  (second_v29 (W4 m ρ c)).trans (W4_v29 m ρ c)
theorem W6_v5 : W6 m ρ c (Proc.devRef .tc main_v5) = src m c :=
  (second_v5 (W4 m ρ c)).trans (W4_v5 m ρ c)
theorem W6_v6 : W6 m ρ c (Proc.devRef .tc main_v6) = tgt m c :=
  (second_v6 (W4 m ρ c)).trans (W4_v6 m ρ c)
theorem W6_arg4 : W6 m ρ c (Proc.devRef .tc main_arg4) = m ((c.tc : Thread nD τ).loc main_arg4) :=
  (second_arg4 (W4 m ρ c)).trans (W4_arg4 m ρ c)
theorem W6_arg5 : W6 m ρ c (Proc.devRef .tc main_arg5) = m ((c.tc : Thread nD τ).loc main_arg5) :=
  (second_arg5 (W4 m ρ c)).trans (W4_arg5 m ρ c)
theorem W6_arg6 : W6 m ρ c (Proc.devRef .tc main_arg6) = m ((c.tc : Thread nD τ).loc main_arg6) :=
  (second_arg6 (W4 m ρ c)).trans (W4_arg6 m ρ c)
theorem W6_arg7 : W6 m ρ c (Proc.devRef .tc main_arg7) = m ((c.tc : Thread nD τ).loc main_arg7) :=
  (second_arg7 (W4 m ρ c)).trans (W4_arg7 m ρ c)

/-! ### At the second region's exit -/
/-- The second product. -/
abbrev h2 : Features := product (hidden m c) (m ((c.tc : Thread nD τ).loc main_arg4))
theorem W7_v48 : W7 m ρ c (Proc.devRef .tc main_v48) = h2 m c :=
  (W7_arr m ρ c 2).trans ((array1 (V6 m ρ) c).trans (congrArg₂ product (W6_v47 m ρ c) (W6_arg4 m ρ c)))
theorem W7_v29 : W7 m ρ c (Proc.devRef .tc main_v29) = wts m c :=
  (W7_of_ne m ρ c main_v29 (by decide)).trans (W6_v29 m ρ c)
theorem W7_v5 : W7 m ρ c (Proc.devRef .tc main_v5) = src m c :=
  (W7_of_ne m ρ c main_v5 (by decide)).trans (W6_v5 m ρ c)
theorem W7_v6 : W7 m ρ c (Proc.devRef .tc main_v6) = tgt m c :=
  (W7_of_ne m ρ c main_v6 (by decide)).trans (W6_v6 m ρ c)
theorem W7_arg5 : W7 m ρ c (Proc.devRef .tc main_arg5) = m ((c.tc : Thread nD τ).loc main_arg5) :=
  (W7_of_ne m ρ c main_arg5 (by decide)).trans (W6_arg5 m ρ c)
theorem W7_arg6 : W7 m ρ c (Proc.devRef .tc main_arg6) = m ((c.tc : Thread nD τ).loc main_arg6) :=
  (W7_of_ne m ρ c main_arg6 (by decide)).trans (W6_arg6 m ρ c)
theorem W7_arg7 : W7 m ρ c (Proc.devRef .tc main_arg7) = m ((c.tc : Thread nD τ).loc main_arg7) :=
  (W7_of_ne m ρ c main_arg7 (by decide)).trans (W6_arg7 m ρ c)

/-! ### At the third region's entry -/
/-- The output rows: the second round of message passing over the second product. -/
abbrev rows : Features := aggregate (h2 m c) (wts m c) (src m c) (tgt m c) (m ((c.tc : Thread nD τ).loc main_arg5))
theorem W8_v64 : W8 m ρ c (Proc.devRef .tc main_v64) = rows m c :=
  (third_rows (W7 m ρ c)).trans (by rw [W7_v48, W7_v29, W7_v5, W7_v6, W7_arg5])
theorem W8_v65 : W8 m ρ c (Proc.devRef .tc main_v65) = shapeCast S1x40 (m ((c.tc : Thread nD τ).loc main_arg7)) shapeCasts_S40_S1x40 :=
  (third_bias (W7 m ρ c)).trans (by rw [W7_arg7])
theorem W8_arg6 : W8 m ρ c (Proc.devRef .tc main_arg6) = m ((c.tc : Thread nD τ).loc main_arg6) :=
  (third_arg6 (W7 m ρ c)).trans (W7_arg6 m ρ c)

/-! ### At the return -/
/-- The result array after the run: the third product, with its bias, of the output rows. -/
theorem result : W9 m ρ c (Proc.devRef .tc main_v66)
    = productBias (rows m c) (m ((c.tc : Thread nD τ).loc main_arg6)) (shapeCast S1x40 (m ((c.tc : Thread nD τ).loc main_arg7)) shapeCasts_S40_S1x40) :=
  (W9_arr m ρ c 3).trans ((array2 (V8 m ρ) c).trans (by
    show productBias (W8 m ρ c (Proc.devRef .tc main_v64)) (W8 m ρ c (Proc.devRef .tc main_arg6)) (W8 m ρ c (Proc.devRef .tc main_v65)) = _
    rw [W8_v64, W8_arg6, W8_v65]))

end Cert.KernelIdeal.States

end
-- ==== Proof.ReferenceProducts.lean ====
/-
  The reference's three dense products, named: a 50000×128 array times a 128×128 matrix, and times a 128×40 matrix with
  a bias vector broadcast over the rows.
-/
import proofs.«124308_j9466107920639_1_alg».proof.Proof.Gen.ReferenceIdeal
import Idealize.ShloMosaic.PureOps.Ideal

noncomputable section

namespace Cert.ReferenceIdeal.States

open Cert.ReferenceIdeal Cert.ReferenceIdeal.Gen Idealize.ShloMosaic

/-- The product of a 50000×128 array and a 128×128 matrix, as the reference applies it. -/
abbrev times (A : FVec Ideal S50000x128 .f32) (B : FVec Ideal S128x128 .f32) : FVec Ideal S50000x128 .f32 :=
  Host.dotGeneral dot_S50000x128_S128x128_S50000x128_1_0_0_1_n_n none A B
/-- The product of a 50000×128 array and a 128×40 matrix plus a bias vector, as the reference applies them. -/
abbrev timesPlus (A : FVec Ideal S50000x128 .f32) (B : FVec Ideal S128x40 .f32) (b : FVec Ideal S40 .f32) : FVec Ideal S50000x40 .f32 :=
  addf (Host.dotGeneral dot_S50000x128_S128x40_S50000x40_1_0_0_1_n_n none A B)
    (broadcastInDim S50000x40 ![0, 1] bcast_S1x40_S50000x40_0_1 (broadcastInDim S1x40 ![1] bcast_S40_S1x40_1 b))

end Cert.ReferenceIdeal.States

end
-- ==== Proof.RefWeightsA.lean ====
/-
  The reference's operations 2 … 41, folded over any buffer contents: the extended edge list and the edges' weights, for the
  first round of message passing. Three lists, the first read in two parts; each line reads one part's fold at one buffer
  (the fold computes), and the last group puts the parts together. The first product's result and the arguments pass
  through untouched.
-/
import proofs.«124308_j9466107920639_1_alg».proof.Proof.ReferenceOps
import proofs.«124308_j9466107920639_1_alg».proof.Proof.ReferenceProducts
import proofs.«124308_j9466107920639_1_alg».proof.Proof.GraphOps
import proofs.«124308_j9466107920639_1_alg».proof.Proof.FoldSplit

set_option maxRecDepth 65536

noncomputable section

namespace Cert.ReferenceIdeal.States

open Cert.ReferenceIdeal Cert.ReferenceIdeal.Gen Cert.ReferenceIdeal.Ops Cert.KernelIdeal.Graph
open Idealize.ShloMosaic Idealize.ShloMosaic.TcCoe Idealize.ShloMosaic.StableHlo Idealize.SL.Sem

variable (V : Valuation τ sig (Elt Ideal))

/-! ### The first list, up to the degrees: the extended edge list and the number of edges into each node -/
theorem wA1a_src : after (opsA1.take 13) V (Proc.devRef .tc main_v6) = sources (V (Proc.devRef .tc main_arg1)) := rfl
theorem wA1a_dst : after (opsA1.take 13) V (Proc.devRef .tc main_v7) = targets (V (Proc.devRef .tc main_arg1)) := rfl
theorem wA1a_deg : after (opsA1.take 13) V (Proc.devRef .tc main_v11) = degree (targets (V (Proc.devRef .tc main_arg1))) := rfl
theorem wA1a_arg0 : after (opsA1.take 13) V (Proc.devRef .tc main_arg0) = V (Proc.devRef .tc main_arg0) := rfl
theorem wA1a_arg1 : after (opsA1.take 13) V (Proc.devRef .tc main_arg1) = V (Proc.devRef .tc main_arg1) := rfl
theorem wA1a_arg2 : after (opsA1.take 13) V (Proc.devRef .tc main_arg2) = V (Proc.devRef .tc main_arg2) := rfl
theorem wA1a_arg3 : after (opsA1.take 13) V (Proc.devRef .tc main_arg3) = V (Proc.devRef .tc main_arg3) := rfl
theorem wA1a_arg4 : after (opsA1.take 13) V (Proc.devRef .tc main_arg4) = V (Proc.devRef .tc main_arg4) := rfl
theorem wA1a_arg5 : after (opsA1.take 13) V (Proc.devRef .tc main_arg5) = V (Proc.devRef .tc main_arg5) := rfl
theorem wA1a_arg6 : after (opsA1.take 13) V (Proc.devRef .tc main_arg6) = V (Proc.devRef .tc main_arg6) := rfl
theorem wA1a_arg7 : after (opsA1.take 13) V (Proc.devRef .tc main_arg7) = V (Proc.devRef .tc main_arg7) := rfl
theorem wA1a_v0 : after (opsA1.take 13) V (Proc.devRef .tc main_v0) = V (Proc.devRef .tc main_v0) := rfl
/-! ### The rest of the first list: where the degree is positive, and its inverse root -/
theorem wA1b_pos : after (opsA1.drop 13) V (Proc.devRef .tc main_v13) = positiveOf (V (Proc.devRef .tc main_v11)) := rfl
theorem wA1b_rs : after (opsA1.drop 13) V (Proc.devRef .tc main_v14) = rsqrtOf (V (Proc.devRef .tc main_v11)) := rfl
theorem wA1b_z : after (opsA1.drop 13) V (Proc.devRef .tc main_cst_2) = zeroScalar := rfl
theorem wA1b_src : after (opsA1.drop 13) V (Proc.devRef .tc main_v6) = V (Proc.devRef .tc main_v6) := rfl
theorem wA1b_dst : after (opsA1.drop 13) V (Proc.devRef .tc main_v7) = V (Proc.devRef .tc main_v7) := rfl
theorem wA1b_arg0 : after (opsA1.drop 13) V (Proc.devRef .tc main_arg0) = V (Proc.devRef .tc main_arg0) := rfl
theorem wA1b_arg1 : after (opsA1.drop 13) V (Proc.devRef .tc main_arg1) = V (Proc.devRef .tc main_arg1) := rfl
theorem wA1b_arg2 : after (opsA1.drop 13) V (Proc.devRef .tc main_arg2) = V (Proc.devRef .tc main_arg2) := rfl
theorem wA1b_arg3 : after (opsA1.drop 13) V (Proc.devRef .tc main_arg3) = V (Proc.devRef .tc main_arg3) := rfl
theorem wA1b_arg4 : after (opsA1.drop 13) V (Proc.devRef .tc main_arg4) = V (Proc.devRef .tc main_arg4) := rfl
theorem wA1b_arg5 : after (opsA1.drop 13) V (Proc.devRef .tc main_arg5) = V (Proc.devRef .tc main_arg5) := rfl
theorem wA1b_arg6 : after (opsA1.drop 13) V (Proc.devRef .tc main_arg6) = V (Proc.devRef .tc main_arg6) := rfl
theorem wA1b_arg7 : after (opsA1.drop 13) V (Proc.devRef .tc main_arg7) = V (Proc.devRef .tc main_arg7) := rfl
theorem wA1b_v0 : after (opsA1.drop 13) V (Proc.devRef .tc main_v0) = V (Proc.devRef .tc main_v0) := rfl
/-! ### The second list: the inverse roots where the degree is positive -/
theorem wA2_inv : after opsA2 V (Proc.devRef .tc main_v15) = keepWhere (V (Proc.devRef .tc main_v13)) (V (Proc.devRef .tc main_v14)) (V (Proc.devRef .tc main_cst_2)) := rfl
theorem wA2_src : after opsA2 V (Proc.devRef .tc main_v6) = V (Proc.devRef .tc main_v6) := rfl
theorem wA2_dst : after opsA2 V (Proc.devRef .tc main_v7) = V (Proc.devRef .tc main_v7) := rfl
theorem wA2_arg0 : after opsA2 V (Proc.devRef .tc main_arg0) = V (Proc.devRef .tc main_arg0) := rfl
theorem wA2_arg1 : after opsA2 V (Proc.devRef .tc main_arg1) = V (Proc.devRef .tc main_arg1) := rfl
theorem wA2_arg2 : after opsA2 V (Proc.devRef .tc main_arg2) = V (Proc.devRef .tc main_arg2) := rfl
theorem wA2_arg3 : after opsA2 V (Proc.devRef .tc main_arg3) = V (Proc.devRef .tc main_arg3) := rfl
theorem wA2_arg4 : after opsA2 V (Proc.devRef .tc main_arg4) = V (Proc.devRef .tc main_arg4) := rfl
theorem wA2_arg5 : after opsA2 V (Proc.devRef .tc main_arg5) = V (Proc.devRef .tc main_arg5) := rfl
theorem wA2_arg6 : after opsA2 V (Proc.devRef .tc main_arg6) = V (Proc.devRef .tc main_arg6) := rfl
theorem wA2_arg7 : after opsA2 V (Proc.devRef .tc main_arg7) = V (Proc.devRef .tc main_arg7) := rfl
theorem wA2_v0 : after opsA2 V (Proc.devRef .tc main_v0) = V (Proc.devRef .tc main_v0) := rfl
/-! ### The third list: the edges' weights -/
theorem wA3_w : after opsA3 V (Proc.devRef .tc main_v30) = weightsOf (V (Proc.devRef .tc main_v15)) (V (Proc.devRef .tc main_v6)) (V (Proc.devRef .tc main_v7)) := rfl
theorem wA3_src : after opsA3 V (Proc.devRef .tc main_v6) = V (Proc.devRef .tc main_v6) := rfl
theorem wA3_dst : after opsA3 V (Proc.devRef .tc main_v7) = V (Proc.devRef .tc main_v7) := rfl
theorem wA3_arg0 : after opsA3 V (Proc.devRef .tc main_arg0) = V (Proc.devRef .tc main_arg0) := rfl
theorem wA3_arg1 : after opsA3 V (Proc.devRef .tc main_arg1) = V (Proc.devRef .tc main_arg1) := rfl
theorem wA3_arg2 : after opsA3 V (Proc.devRef .tc main_arg2) = V (Proc.devRef .tc main_arg2) := rfl
theorem wA3_arg3 : after opsA3 V (Proc.devRef .tc main_arg3) = V (Proc.devRef .tc main_arg3) := rfl
theorem wA3_arg4 : after opsA3 V (Proc.devRef .tc main_arg4) = V (Proc.devRef .tc main_arg4) := rfl
theorem wA3_arg5 : after opsA3 V (Proc.devRef .tc main_arg5) = V (Proc.devRef .tc main_arg5) := rfl
theorem wA3_arg6 : after opsA3 V (Proc.devRef .tc main_arg6) = V (Proc.devRef .tc main_arg6) := rfl
theorem wA3_arg7 : after opsA3 V (Proc.devRef .tc main_arg7) = V (Proc.devRef .tc main_arg7) := rfl
theorem wA3_v0 : after opsA3 V (Proc.devRef .tc main_v0) = V (Proc.devRef .tc main_v0) := rfl
/-! ### The three lists in order -/
theorem wA_src : after opsA3 (after opsA2 (after opsA1 V)) (Proc.devRef .tc main_v6) = sources (V (Proc.devRef .tc main_arg1)) := by
  rw [Cert.Fold.after_split 13 opsA1, wA3_src, wA2_src, wA1b_src, wA1a_src]
theorem wA_dst : after opsA3 (after opsA2 (after opsA1 V)) (Proc.devRef .tc main_v7) = targets (V (Proc.devRef .tc main_arg1)) := by
  rw [Cert.Fold.after_split 13 opsA1, wA3_dst, wA2_dst, wA1b_dst, wA1a_dst]
theorem wA_w : after opsA3 (after opsA2 (after opsA1 V)) (Proc.devRef .tc main_v30) = edgeWeights (sources (V (Proc.devRef .tc main_arg1))) (targets (V (Proc.devRef .tc main_arg1))) := by
  rw [Cert.Fold.after_split 13 opsA1, wA3_w, wA2_inv, wA2_src, wA2_dst, wA1b_pos, wA1b_rs, wA1b_z, wA1b_src, wA1b_dst, wA1a_deg, wA1a_src, wA1a_dst]
  rfl
theorem wA_arg0 : after opsA3 (after opsA2 (after opsA1 V)) (Proc.devRef .tc main_arg0) = V (Proc.devRef .tc main_arg0) := by
  rw [Cert.Fold.after_split 13 opsA1, wA3_arg0, wA2_arg0, wA1b_arg0, wA1a_arg0]
theorem wA_arg1 : after opsA3 (after opsA2 (after opsA1 V)) (Proc.devRef .tc main_arg1) = V (Proc.devRef .tc main_arg1) := by
  rw [Cert.Fold.after_split 13 opsA1, wA3_arg1, wA2_arg1, wA1b_arg1, wA1a_arg1]
theorem wA_arg2 : after opsA3 (after opsA2 (after opsA1 V)) (Proc.devRef .tc main_arg2) = V (Proc.devRef .tc main_arg2) := by
  rw [Cert.Fold.after_split 13 opsA1, wA3_arg2, wA2_arg2, wA1b_arg2, wA1a_arg2]
theorem wA_arg3 : after opsA3 (after opsA2 (after opsA1 V)) (Proc.devRef .tc main_arg3) = V (Proc.devRef .tc main_arg3) := by
  rw [Cert.Fold.after_split 13 opsA1, wA3_arg3, wA2_arg3, wA1b_arg3, wA1a_arg3]
theorem wA_arg4 : after opsA3 (after opsA2 (after opsA1 V)) (Proc.devRef .tc main_arg4) = V (Proc.devRef .tc main_arg4) := by
  rw [Cert.Fold.after_split 13 opsA1, wA3_arg4, wA2_arg4, wA1b_arg4, wA1a_arg4]
theorem wA_arg5 : after opsA3 (after opsA2 (after opsA1 V)) (Proc.devRef .tc main_arg5) = V (Proc.devRef .tc main_arg5) := by
  rw [Cert.Fold.after_split 13 opsA1, wA3_arg5, wA2_arg5, wA1b_arg5, wA1a_arg5]
theorem wA_arg6 : after opsA3 (after opsA2 (after opsA1 V)) (Proc.devRef .tc main_arg6) = V (Proc.devRef .tc main_arg6) := by
  rw [Cert.Fold.after_split 13 opsA1, wA3_arg6, wA2_arg6, wA1b_arg6, wA1a_arg6]
theorem wA_arg7 : after opsA3 (after opsA2 (after opsA1 V)) (Proc.devRef .tc main_arg7) = V (Proc.devRef .tc main_arg7) := by
  rw [Cert.Fold.after_split 13 opsA1, wA3_arg7, wA2_arg7, wA1b_arg7, wA1a_arg7]
theorem wA_v0 : after opsA3 (after opsA2 (after opsA1 V)) (Proc.devRef .tc main_v0) = V (Proc.devRef .tc main_v0) := by
  rw [Cert.Fold.after_split 13 opsA1, wA3_v0, wA2_v0, wA1b_v0, wA1a_v0]

end Cert.ReferenceIdeal.States

end
-- ==== Proof.RefWeightsC.lean ====
/-
  The reference's operations 65 … 104, folded over any buffer contents: the extended edge list and the edges' weights once
  more, for the second round of message passing. Three lists, the first read in two parts; each line reads one part's fold
  at one buffer (the fold computes), and the last group puts the parts together. The second product's result and the
  arguments pass through untouched.
-/
import proofs.«124308_j9466107920639_1_alg».proof.Proof.ReferenceOps
import proofs.«124308_j9466107920639_1_alg».proof.Proof.ReferenceProducts
import proofs.«124308_j9466107920639_1_alg».proof.Proof.GraphOps
import proofs.«124308_j9466107920639_1_alg».proof.Proof.FoldSplit

set_option maxRecDepth 65536

noncomputable section

namespace Cert.ReferenceIdeal.States

open Cert.ReferenceIdeal Cert.ReferenceIdeal.Gen Cert.ReferenceIdeal.Ops Cert.KernelIdeal.Graph
open Idealize.ShloMosaic Idealize.ShloMosaic.TcCoe Idealize.ShloMosaic.StableHlo Idealize.SL.Sem

variable (V : Valuation τ sig (Elt Ideal))

/-! ### The first list, up to the degrees: the extended edge list and the number of edges into each node -/
theorem wC1a_src : after (opsC1.take 13) V (Proc.devRef .tc main_v54) = sources (V (Proc.devRef .tc main_arg1)) := rfl
theorem wC1a_dst : after (opsC1.take 13) V (Proc.devRef .tc main_v55) = targets (V (Proc.devRef .tc main_arg1)) := rfl
theorem wC1a_deg : after (opsC1.take 13) V (Proc.devRef .tc main_v59) = degree (targets (V (Proc.devRef .tc main_arg1))) := rfl
theorem wC1a_arg0 : after (opsC1.take 13) V (Proc.devRef .tc main_arg0) = V (Proc.devRef .tc main_arg0) := rfl
theorem wC1a_arg1 : after (opsC1.take 13) V (Proc.devRef .tc main_arg1) = V (Proc.devRef .tc main_arg1) := rfl
theorem wC1a_arg2 : after (opsC1.take 13) V (Proc.devRef .tc main_arg2) = V (Proc.devRef .tc main_arg2) := rfl
theorem wC1a_arg3 : after (opsC1.take 13) V (Proc.devRef .tc main_arg3) = V (Proc.devRef .tc main_arg3) := rfl
theorem wC1a_arg4 : after (opsC1.take 13) V (Proc.devRef .tc main_arg4) = V (Proc.devRef .tc main_arg4) := rfl
theorem wC1a_arg5 : after (opsC1.take 13) V (Proc.devRef .tc main_arg5) = V (Proc.devRef .tc main_arg5) := rfl
theorem wC1a_arg6 : after (opsC1.take 13) V (Proc.devRef .tc main_arg6) = V (Proc.devRef .tc main_arg6) := rfl
theorem wC1a_arg7 : after (opsC1.take 13) V (Proc.devRef .tc main_arg7) = V (Proc.devRef .tc main_arg7) := rfl
theorem wC1a_v48 : after (opsC1.take 13) V (Proc.devRef .tc main_v48) = V (Proc.devRef .tc main_v48) := rfl
/-! ### The rest of the first list: where the degree is positive, and its inverse root -/
theorem wC1b_pos : after (opsC1.drop 13) V (Proc.devRef .tc main_v61) = positiveOf (V (Proc.devRef .tc main_v59)) := rfl
theorem wC1b_rs : after (opsC1.drop 13) V (Proc.devRef .tc main_v62) = rsqrtOf (V (Proc.devRef .tc main_v59)) := rfl
theorem wC1b_z : after (opsC1.drop 13) V (Proc.devRef .tc main_cst_12) = zeroScalar := rfl
theorem wC1b_src : after (opsC1.drop 13) V (Proc.devRef .tc main_v54) = V (Proc.devRef .tc main_v54) := rfl
theorem wC1b_dst : after (opsC1.drop 13) V (Proc.devRef .tc main_v55) = V (Proc.devRef .tc main_v55) := rfl
theorem wC1b_arg0 : after (opsC1.drop 13) V (Proc.devRef .tc main_arg0) = V (Proc.devRef .tc main_arg0) := rfl
theorem wC1b_arg1 : after (opsC1.drop 13) V (Proc.devRef .tc main_arg1) = V (Proc.devRef .tc main_arg1) := rfl
theorem wC1b_arg2 : after (opsC1.drop 13) V (Proc.devRef .tc main_arg2) = V (Proc.devRef .tc main_arg2) := rfl
theorem wC1b_arg3 : after (opsC1.drop 13) V (Proc.devRef .tc main_arg3) = V (Proc.devRef .tc main_arg3) := rfl
theorem wC1b_arg4 : after (opsC1.drop 13) V (Proc.devRef .tc main_arg4) = V (Proc.devRef .tc main_arg4) := rfl
theorem wC1b_arg5 : after (opsC1.drop 13) V (Proc.devRef .tc main_arg5) = V (Proc.devRef .tc main_arg5) := rfl
theorem wC1b_arg6 : after (opsC1.drop 13) V (Proc.devRef .tc main_arg6) = V (Proc.devRef .tc main_arg6) := rfl
theorem wC1b_arg7 : after (opsC1.drop 13) V (Proc.devRef .tc main_arg7) = V (Proc.devRef .tc main_arg7) := rfl
theorem wC1b_v48 : after (opsC1.drop 13) V (Proc.devRef .tc main_v48) = V (Proc.devRef .tc main_v48) := rfl
/-! ### The second list: the inverse roots where the degree is positive -/
theorem wC2_inv : after opsC2 V (Proc.devRef .tc main_v63) = keepWhere (V (Proc.devRef .tc main_v61)) (V (Proc.devRef .tc main_v62)) (V (Proc.devRef .tc main_cst_12)) := rfl
theorem wC2_src : after opsC2 V (Proc.devRef .tc main_v54) = V (Proc.devRef .tc main_v54) := rfl
theorem wC2_dst : after opsC2 V (Proc.devRef .tc main_v55) = V (Proc.devRef .tc main_v55) := rfl
theorem wC2_arg0 : after opsC2 V (Proc.devRef .tc main_arg0) = V (Proc.devRef .tc main_arg0) := rfl
theorem wC2_arg1 : after opsC2 V (Proc.devRef .tc main_arg1) = V (Proc.devRef .tc main_arg1) := rfl
theorem wC2_arg2 : after opsC2 V (Proc.devRef .tc main_arg2) = V (Proc.devRef .tc main_arg2) := rfl
theorem wC2_arg3 : after opsC2 V (Proc.devRef .tc main_arg3) = V (Proc.devRef .tc main_arg3) := rfl
theorem wC2_arg4 : after opsC2 V (Proc.devRef .tc main_arg4) = V (Proc.devRef .tc main_arg4) := rfl
theorem wC2_arg5 : after opsC2 V (Proc.devRef .tc main_arg5) = V (Proc.devRef .tc main_arg5) := rfl
theorem wC2_arg6 : after opsC2 V (Proc.devRef .tc main_arg6) = V (Proc.devRef .tc main_arg6) := rfl
theorem wC2_arg7 : after opsC2 V (Proc.devRef .tc main_arg7) = V (Proc.devRef .tc main_arg7) := rfl
theorem wC2_v48 : after opsC2 V (Proc.devRef .tc main_v48) = V (Proc.devRef .tc main_v48) := rfl
/-! ### The third list: the edges' weights -/
theorem wC3_w : after opsC3 V (Proc.devRef .tc main_v78) = weightsOf (V (Proc.devRef .tc main_v63)) (V (Proc.devRef .tc main_v54)) (V (Proc.devRef .tc main_v55)) := rfl
theorem wC3_src : after opsC3 V (Proc.devRef .tc main_v54) = V (Proc.devRef .tc main_v54) := rfl
theorem wC3_dst : after opsC3 V (Proc.devRef .tc main_v55) = V (Proc.devRef .tc main_v55) := rfl
theorem wC3_arg0 : after opsC3 V (Proc.devRef .tc main_arg0) = V (Proc.devRef .tc main_arg0) := rfl
theorem wC3_arg1 : after opsC3 V (Proc.devRef .tc main_arg1) = V (Proc.devRef .tc main_arg1) := rfl
theorem wC3_arg2 : after opsC3 V (Proc.devRef .tc main_arg2) = V (Proc.devRef .tc main_arg2) := rfl
theorem wC3_arg3 : after opsC3 V (Proc.devRef .tc main_arg3) = V (Proc.devRef .tc main_arg3) := rfl
theorem wC3_arg4 : after opsC3 V (Proc.devRef .tc main_arg4) = V (Proc.devRef .tc main_arg4) := rfl
theorem wC3_arg5 : after opsC3 V (Proc.devRef .tc main_arg5) = V (Proc.devRef .tc main_arg5) := rfl
theorem wC3_arg6 : after opsC3 V (Proc.devRef .tc main_arg6) = V (Proc.devRef .tc main_arg6) := rfl
theorem wC3_arg7 : after opsC3 V (Proc.devRef .tc main_arg7) = V (Proc.devRef .tc main_arg7) := rfl
theorem wC3_v48 : after opsC3 V (Proc.devRef .tc main_v48) = V (Proc.devRef .tc main_v48) := rfl
/-! ### The three lists in order -/
theorem wC_src : after opsC3 (after opsC2 (after opsC1 V)) (Proc.devRef .tc main_v54) = sources (V (Proc.devRef .tc main_arg1)) := by
  rw [Cert.Fold.after_split 13 opsC1, wC3_src, wC2_src, wC1b_src, wC1a_src]
theorem wC_dst : after opsC3 (after opsC2 (after opsC1 V)) (Proc.devRef .tc main_v55) = targets (V (Proc.devRef .tc main_arg1)) := by
  rw [Cert.Fold.after_split 13 opsC1, wC3_dst, wC2_dst, wC1b_dst, wC1a_dst]
theorem wC_w : after opsC3 (after opsC2 (after opsC1 V)) (Proc.devRef .tc main_v78) = edgeWeights (sources (V (Proc.devRef .tc main_arg1))) (targets (V (Proc.devRef .tc main_arg1))) := by
  rw [Cert.Fold.after_split 13 opsC1, wC3_w, wC2_inv, wC2_src, wC2_dst, wC1b_pos, wC1b_rs, wC1b_z, wC1b_src, wC1b_dst, wC1a_deg, wC1a_src, wC1a_dst]
  rfl
theorem wC_arg0 : after opsC3 (after opsC2 (after opsC1 V)) (Proc.devRef .tc main_arg0) = V (Proc.devRef .tc main_arg0) := by
  rw [Cert.Fold.after_split 13 opsC1, wC3_arg0, wC2_arg0, wC1b_arg0, wC1a_arg0]
theorem wC_arg1 : after opsC3 (after opsC2 (after opsC1 V)) (Proc.devRef .tc main_arg1) = V (Proc.devRef .tc main_arg1) := by
  rw [Cert.Fold.after_split 13 opsC1, wC3_arg1, wC2_arg1, wC1b_arg1, wC1a_arg1]
theorem wC_arg2 : after opsC3 (after opsC2 (after opsC1 V)) (Proc.devRef .tc main_arg2) = V (Proc.devRef .tc main_arg2) := by
  rw [Cert.Fold.after_split 13 opsC1, wC3_arg2, wC2_arg2, wC1b_arg2, wC1a_arg2]
theorem wC_arg3 : after opsC3 (after opsC2 (after opsC1 V)) (Proc.devRef .tc main_arg3) = V (Proc.devRef .tc main_arg3) := by
  rw [Cert.Fold.after_split 13 opsC1, wC3_arg3, wC2_arg3, wC1b_arg3, wC1a_arg3]
theorem wC_arg4 : after opsC3 (after opsC2 (after opsC1 V)) (Proc.devRef .tc main_arg4) = V (Proc.devRef .tc main_arg4) := by
  rw [Cert.Fold.after_split 13 opsC1, wC3_arg4, wC2_arg4, wC1b_arg4, wC1a_arg4]
theorem wC_arg5 : after opsC3 (after opsC2 (after opsC1 V)) (Proc.devRef .tc main_arg5) = V (Proc.devRef .tc main_arg5) := by
  rw [Cert.Fold.after_split 13 opsC1, wC3_arg5, wC2_arg5, wC1b_arg5, wC1a_arg5]
theorem wC_arg6 : after opsC3 (after opsC2 (after opsC1 V)) (Proc.devRef .tc main_arg6) = V (Proc.devRef .tc main_arg6) := by
  rw [Cert.Fold.after_split 13 opsC1, wC3_arg6, wC2_arg6, wC1b_arg6, wC1a_arg6]
theorem wC_arg7 : after opsC3 (after opsC2 (after opsC1 V)) (Proc.devRef .tc main_arg7) = V (Proc.devRef .tc main_arg7) := by
  rw [Cert.Fold.after_split 13 opsC1, wC3_arg7, wC2_arg7, wC1b_arg7, wC1a_arg7]
theorem wC_v48 : after opsC3 (after opsC2 (after opsC1 V)) (Proc.devRef .tc main_v48) = V (Proc.devRef .tc main_v48) := by
  rw [Cert.Fold.after_split 13 opsC1, wC3_v48, wC2_v48, wC1b_v48, wC1a_v48]

end Cert.ReferenceIdeal.States

end
-- ==== Proof.RefRoundA.lean ====
/-
  The reference's first product (operation 1), its first round of message passing with the positive part (operations
  42 … 63, read in two parts cut after the sum into the targets' rows) and its second product (operation 64), each folded
  over any buffer contents. Each line reads a fold at one buffer.
-/
import proofs.«124308_j9466107920639_1_alg».proof.Proof.ReferenceOps
import proofs.«124308_j9466107920639_1_alg».proof.Proof.ReferenceProducts
import proofs.«124308_j9466107920639_1_alg».proof.Proof.GraphOps
import proofs.«124308_j9466107920639_1_alg».proof.Proof.FoldSplit

set_option maxRecDepth 65536

noncomputable section

namespace Cert.ReferenceIdeal.States

open Cert.ReferenceIdeal Cert.ReferenceIdeal.Gen Cert.ReferenceIdeal.Ops Cert.KernelIdeal.Graph
open Idealize.ShloMosaic Idealize.ShloMosaic.TcCoe Idealize.ShloMosaic.StableHlo Idealize.SL.Sem

variable (V : Valuation τ sig (Elt Ideal))

theorem pA0_product : after opsA0 V (Proc.devRef .tc main_v0) = times (V (Proc.devRef .tc main_arg0)) (V (Proc.devRef .tc main_arg2)) := rfl
theorem pA0_arg0 : after opsA0 V (Proc.devRef .tc main_arg0) = V (Proc.devRef .tc main_arg0) := rfl
theorem pA0_arg1 : after opsA0 V (Proc.devRef .tc main_arg1) = V (Proc.devRef .tc main_arg1) := rfl
theorem pA0_arg2 : after opsA0 V (Proc.devRef .tc main_arg2) = V (Proc.devRef .tc main_arg2) := rfl
theorem pA0_arg3 : after opsA0 V (Proc.devRef .tc main_arg3) = V (Proc.devRef .tc main_arg3) := rfl
theorem pA0_arg4 : after opsA0 V (Proc.devRef .tc main_arg4) = V (Proc.devRef .tc main_arg4) := rfl
theorem pA0_arg5 : after opsA0 V (Proc.devRef .tc main_arg5) = V (Proc.devRef .tc main_arg5) := rfl
theorem pA0_arg6 : after opsA0 V (Proc.devRef .tc main_arg6) = V (Proc.devRef .tc main_arg6) := rfl
theorem pA0_arg7 : after opsA0 V (Proc.devRef .tc main_arg7) = V (Proc.devRef .tc main_arg7) := rfl

theorem pA4a_rows : after (opsA4.take 16) V (Proc.devRef .tc main_v43)
    = scatterRows (V (Proc.devRef .tc main_v0)) (V (Proc.devRef .tc main_v30)) (V (Proc.devRef .tc main_v6)) (V (Proc.devRef .tc main_v7)) := rfl
theorem pA4a_arg0 : after (opsA4.take 16) V (Proc.devRef .tc main_arg0) = V (Proc.devRef .tc main_arg0) := rfl
theorem pA4a_arg1 : after (opsA4.take 16) V (Proc.devRef .tc main_arg1) = V (Proc.devRef .tc main_arg1) := rfl
theorem pA4a_arg2 : after (opsA4.take 16) V (Proc.devRef .tc main_arg2) = V (Proc.devRef .tc main_arg2) := rfl
theorem pA4a_arg3 : after (opsA4.take 16) V (Proc.devRef .tc main_arg3) = V (Proc.devRef .tc main_arg3) := rfl
theorem pA4a_arg4 : after (opsA4.take 16) V (Proc.devRef .tc main_arg4) = V (Proc.devRef .tc main_arg4) := rfl
theorem pA4a_arg5 : after (opsA4.take 16) V (Proc.devRef .tc main_arg5) = V (Proc.devRef .tc main_arg5) := rfl
theorem pA4a_arg6 : after (opsA4.take 16) V (Proc.devRef .tc main_arg6) = V (Proc.devRef .tc main_arg6) := rfl
theorem pA4a_arg7 : after (opsA4.take 16) V (Proc.devRef .tc main_arg7) = V (Proc.devRef .tc main_arg7) := rfl
theorem pA4b_positive : after (opsA4.drop 16) V (Proc.devRef .tc main_v47) = positivePart (addBias (V (Proc.devRef .tc main_v43)) (V (Proc.devRef .tc main_arg3))) := rfl
theorem pA4b_arg0 : after (opsA4.drop 16) V (Proc.devRef .tc main_arg0) = V (Proc.devRef .tc main_arg0) := rfl
theorem pA4b_arg1 : after (opsA4.drop 16) V (Proc.devRef .tc main_arg1) = V (Proc.devRef .tc main_arg1) := rfl
theorem pA4b_arg2 : after (opsA4.drop 16) V (Proc.devRef .tc main_arg2) = V (Proc.devRef .tc main_arg2) := rfl
theorem pA4b_arg3 : after (opsA4.drop 16) V (Proc.devRef .tc main_arg3) = V (Proc.devRef .tc main_arg3) := rfl
theorem pA4b_arg4 : after (opsA4.drop 16) V (Proc.devRef .tc main_arg4) = V (Proc.devRef .tc main_arg4) := rfl
theorem pA4b_arg5 : after (opsA4.drop 16) V (Proc.devRef .tc main_arg5) = V (Proc.devRef .tc main_arg5) := rfl
theorem pA4b_arg6 : after (opsA4.drop 16) V (Proc.devRef .tc main_arg6) = V (Proc.devRef .tc main_arg6) := rfl
theorem pA4b_arg7 : after (opsA4.drop 16) V (Proc.devRef .tc main_arg7) = V (Proc.devRef .tc main_arg7) := rfl
theorem pA4_hidden : after opsA4 V (Proc.devRef .tc main_v47)
    = positivePart (aggregate (V (Proc.devRef .tc main_v0)) (V (Proc.devRef .tc main_v30)) (V (Proc.devRef .tc main_v6)) (V (Proc.devRef .tc main_v7)) (V (Proc.devRef .tc main_arg3))) := by
  rw [Cert.Fold.after_split 16 opsA4, pA4b_positive, pA4a_rows, pA4a_arg3]
  rfl
theorem pA4_arg0 : after opsA4 V (Proc.devRef .tc main_arg0) = V (Proc.devRef .tc main_arg0) := by
  rw [Cert.Fold.after_split 16 opsA4, pA4b_arg0, pA4a_arg0]
theorem pA4_arg1 : after opsA4 V (Proc.devRef .tc main_arg1) = V (Proc.devRef .tc main_arg1) := by
  rw [Cert.Fold.after_split 16 opsA4, pA4b_arg1, pA4a_arg1]
theorem pA4_arg2 : after opsA4 V (Proc.devRef .tc main_arg2) = V (Proc.devRef .tc main_arg2) := by
  rw [Cert.Fold.after_split 16 opsA4, pA4b_arg2, pA4a_arg2]
theorem pA4_arg3 : after opsA4 V (Proc.devRef .tc main_arg3) = V (Proc.devRef .tc main_arg3) := by
  rw [Cert.Fold.after_split 16 opsA4, pA4b_arg3, pA4a_arg3]
theorem pA4_arg4 : after opsA4 V (Proc.devRef .tc main_arg4) = V (Proc.devRef .tc main_arg4) := by
  rw [Cert.Fold.after_split 16 opsA4, pA4b_arg4, pA4a_arg4]
theorem pA4_arg5 : after opsA4 V (Proc.devRef .tc main_arg5) = V (Proc.devRef .tc main_arg5) := by
  rw [Cert.Fold.after_split 16 opsA4, pA4b_arg5, pA4a_arg5]
theorem pA4_arg6 : after opsA4 V (Proc.devRef .tc main_arg6) = V (Proc.devRef .tc main_arg6) := by
  rw [Cert.Fold.after_split 16 opsA4, pA4b_arg6, pA4a_arg6]
theorem pA4_arg7 : after opsA4 V (Proc.devRef .tc main_arg7) = V (Proc.devRef .tc main_arg7) := by
  rw [Cert.Fold.after_split 16 opsA4, pA4b_arg7, pA4a_arg7]

theorem pB_product : after opsB V (Proc.devRef .tc main_v48) = times (V (Proc.devRef .tc main_v47)) (V (Proc.devRef .tc main_arg4)) := rfl
theorem pB_arg0 : after opsB V (Proc.devRef .tc main_arg0) = V (Proc.devRef .tc main_arg0) := rfl
theorem pB_arg1 : after opsB V (Proc.devRef .tc main_arg1) = V (Proc.devRef .tc main_arg1) := rfl
theorem pB_arg2 : after opsB V (Proc.devRef .tc main_arg2) = V (Proc.devRef .tc main_arg2) := rfl
theorem pB_arg3 : after opsB V (Proc.devRef .tc main_arg3) = V (Proc.devRef .tc main_arg3) := rfl
theorem pB_arg4 : after opsB V (Proc.devRef .tc main_arg4) = V (Proc.devRef .tc main_arg4) := rfl
theorem pB_arg5 : after opsB V (Proc.devRef .tc main_arg5) = V (Proc.devRef .tc main_arg5) := rfl
theorem pB_arg6 : after opsB V (Proc.devRef .tc main_arg6) = V (Proc.devRef .tc main_arg6) := rfl
theorem pB_arg7 : after opsB V (Proc.devRef .tc main_arg7) = V (Proc.devRef .tc main_arg7) := rfl

end Cert.ReferenceIdeal.States

end
-- ==== Proof.RefRoundC.lean ====
/-
  The reference's second round of message passing (operations 105 … 123, read in two parts cut after the sum into the
  targets' rows) and its third product with the bias (operations 124 … 127), each folded over any buffer contents. Each line
  reads a fold at one buffer.
-/
import proofs.«124308_j9466107920639_1_alg».proof.Proof.ReferenceOps
import proofs.«124308_j9466107920639_1_alg».proof.Proof.ReferenceProducts
import proofs.«124308_j9466107920639_1_alg».proof.Proof.GraphOps
import proofs.«124308_j9466107920639_1_alg».proof.Proof.FoldSplit

set_option maxRecDepth 65536

noncomputable section

namespace Cert.ReferenceIdeal.States

open Cert.ReferenceIdeal Cert.ReferenceIdeal.Gen Cert.ReferenceIdeal.Ops Cert.KernelIdeal.Graph
open Idealize.ShloMosaic Idealize.ShloMosaic.TcCoe Idealize.ShloMosaic.StableHlo Idealize.SL.Sem

variable (V : Valuation τ sig (Elt Ideal))

theorem pC4a_rows : after (opsC4.take 16) V (Proc.devRef .tc main_v91)
    = scatterRows (V (Proc.devRef .tc main_v48)) (V (Proc.devRef .tc main_v78)) (V (Proc.devRef .tc main_v54)) (V (Proc.devRef .tc main_v55)) := rfl
theorem pC4a_arg0 : after (opsC4.take 16) V (Proc.devRef .tc main_arg0) = V (Proc.devRef .tc main_arg0) := rfl
theorem pC4a_arg1 : after (opsC4.take 16) V (Proc.devRef .tc main_arg1) = V (Proc.devRef .tc main_arg1) := rfl
theorem pC4a_arg2 : after (opsC4.take 16) V (Proc.devRef .tc main_arg2) = V (Proc.devRef .tc main_arg2) := rfl
theorem pC4a_arg3 : after (opsC4.take 16) V (Proc.devRef .tc main_arg3) = V (Proc.devRef .tc main_arg3) := rfl
theorem pC4a_arg4 : after (opsC4.take 16) V (Proc.devRef .tc main_arg4) = V (Proc.devRef .tc main_arg4) := rfl
theorem pC4a_arg5 : after (opsC4.take 16) V (Proc.devRef .tc main_arg5) = V (Proc.devRef .tc main_arg5) := rfl
theorem pC4a_arg6 : after (opsC4.take 16) V (Proc.devRef .tc main_arg6) = V (Proc.devRef .tc main_arg6) := rfl
theorem pC4a_arg7 : after (opsC4.take 16) V (Proc.devRef .tc main_arg7) = V (Proc.devRef .tc main_arg7) := rfl
theorem pC4b_biased : after (opsC4.drop 16) V (Proc.devRef .tc main_v94) = addBias (V (Proc.devRef .tc main_v91)) (V (Proc.devRef .tc main_arg5)) := rfl
theorem pC4b_arg0 : after (opsC4.drop 16) V (Proc.devRef .tc main_arg0) = V (Proc.devRef .tc main_arg0) := rfl
theorem pC4b_arg1 : after (opsC4.drop 16) V (Proc.devRef .tc main_arg1) = V (Proc.devRef .tc main_arg1) := rfl
theorem pC4b_arg2 : after (opsC4.drop 16) V (Proc.devRef .tc main_arg2) = V (Proc.devRef .tc main_arg2) := rfl
theorem pC4b_arg3 : after (opsC4.drop 16) V (Proc.devRef .tc main_arg3) = V (Proc.devRef .tc main_arg3) := rfl
theorem pC4b_arg4 : after (opsC4.drop 16) V (Proc.devRef .tc main_arg4) = V (Proc.devRef .tc main_arg4) := rfl
theorem pC4b_arg5 : after (opsC4.drop 16) V (Proc.devRef .tc main_arg5) = V (Proc.devRef .tc main_arg5) := rfl
theorem pC4b_arg6 : after (opsC4.drop 16) V (Proc.devRef .tc main_arg6) = V (Proc.devRef .tc main_arg6) := rfl
theorem pC4b_arg7 : after (opsC4.drop 16) V (Proc.devRef .tc main_arg7) = V (Proc.devRef .tc main_arg7) := rfl
theorem pC4_rows : after opsC4 V (Proc.devRef .tc main_v94)
    = aggregate (V (Proc.devRef .tc main_v48)) (V (Proc.devRef .tc main_v78)) (V (Proc.devRef .tc main_v54)) (V (Proc.devRef .tc main_v55)) (V (Proc.devRef .tc main_arg5)) := by
  rw [Cert.Fold.after_split 16 opsC4, pC4b_biased, pC4a_rows, pC4a_arg5]
  rfl
theorem pC4_arg0 : after opsC4 V (Proc.devRef .tc main_arg0) = V (Proc.devRef .tc main_arg0) := by
  rw [Cert.Fold.after_split 16 opsC4, pC4b_arg0, pC4a_arg0]
theorem pC4_arg1 : after opsC4 V (Proc.devRef .tc main_arg1) = V (Proc.devRef .tc main_arg1) := by
  rw [Cert.Fold.after_split 16 opsC4, pC4b_arg1, pC4a_arg1]
theorem pC4_arg2 : after opsC4 V (Proc.devRef .tc main_arg2) = V (Proc.devRef .tc main_arg2) := by
  rw [Cert.Fold.after_split 16 opsC4, pC4b_arg2, pC4a_arg2]
theorem pC4_arg3 : after opsC4 V (Proc.devRef .tc main_arg3) = V (Proc.devRef .tc main_arg3) := by
  rw [Cert.Fold.after_split 16 opsC4, pC4b_arg3, pC4a_arg3]
theorem pC4_arg4 : after opsC4 V (Proc.devRef .tc main_arg4) = V (Proc.devRef .tc main_arg4) := by
  rw [Cert.Fold.after_split 16 opsC4, pC4b_arg4, pC4a_arg4]
theorem pC4_arg5 : after opsC4 V (Proc.devRef .tc main_arg5) = V (Proc.devRef .tc main_arg5) := by
  rw [Cert.Fold.after_split 16 opsC4, pC4b_arg5, pC4a_arg5]
theorem pC4_arg6 : after opsC4 V (Proc.devRef .tc main_arg6) = V (Proc.devRef .tc main_arg6) := by
  rw [Cert.Fold.after_split 16 opsC4, pC4b_arg6, pC4a_arg6]
theorem pC4_arg7 : after opsC4 V (Proc.devRef .tc main_arg7) = V (Proc.devRef .tc main_arg7) := by
  rw [Cert.Fold.after_split 16 opsC4, pC4b_arg7, pC4a_arg7]

theorem pD_result : after opsD V (Proc.devRef .tc main_v98)
    = timesPlus (V (Proc.devRef .tc main_v94)) (V (Proc.devRef .tc main_arg6)) (V (Proc.devRef .tc main_arg7)) := rfl
theorem pD_arg0 : after opsD V (Proc.devRef .tc main_arg0) = V (Proc.devRef .tc main_arg0) := rfl
theorem pD_arg1 : after opsD V (Proc.devRef .tc main_arg1) = V (Proc.devRef .tc main_arg1) := rfl
theorem pD_arg2 : after opsD V (Proc.devRef .tc main_arg2) = V (Proc.devRef .tc main_arg2) := rfl
theorem pD_arg3 : after opsD V (Proc.devRef .tc main_arg3) = V (Proc.devRef .tc main_arg3) := rfl
theorem pD_arg4 : after opsD V (Proc.devRef .tc main_arg4) = V (Proc.devRef .tc main_arg4) := rfl
theorem pD_arg5 : after opsD V (Proc.devRef .tc main_arg5) = V (Proc.devRef .tc main_arg5) := rfl
theorem pD_arg6 : after opsD V (Proc.devRef .tc main_arg6) = V (Proc.devRef .tc main_arg6) := rfl
theorem pD_arg7 : after opsD V (Proc.devRef .tc main_arg7) = V (Proc.devRef .tc main_arg7) := rfl

end Cert.ReferenceIdeal.States

end
-- ==== Proof.ReferenceStates.lean ====
/-
  The idealized reference's buffers, piece by piece, as functions of the launch contents.

  The reference is one straight line of host operations, read here in eleven consecutive pieces. Each piece's fold, read at
  the buffers the next pieces use, is one of the named graph functions — the same operations the kernel's program applies
  between its regions — or one of the three whole-array products; every other buffer passes through. Put together: the
  result is the third product, with its bias, of the second round of message passing over the second product of the
  positive part of the first round over the first product of the arguments.
-/
import proofs.«124308_j9466107920639_1_alg».proof.Proof.ReferenceOps
import proofs.«124308_j9466107920639_1_alg».proof.Proof.ReferenceProducts
import proofs.«124308_j9466107920639_1_alg».proof.Proof.GraphOps
import proofs.«124308_j9466107920639_1_alg».proof.Proof.RefWeightsA
import proofs.«124308_j9466107920639_1_alg».proof.Proof.RefWeightsC
import proofs.«124308_j9466107920639_1_alg».proof.Proof.RefRoundA
import proofs.«124308_j9466107920639_1_alg».proof.Proof.RefRoundC

set_option maxRecDepth 16384

noncomputable section

namespace Cert.ReferenceIdeal.States

open Cert.ReferenceIdeal Cert.ReferenceIdeal.Gen Cert.ReferenceIdeal.Ops Cert.KernelIdeal.Graph
open Idealize.ShloMosaic Idealize.ShloMosaic.TcCoe Idealize.ShloMosaic.StableHlo Idealize.SL.Sem

variable (m : (ℓ : Loc nD τ sig) → Buf (Elt Ideal) ℓ) (c : Dev nD)

/-- The buffers after the eleven pieces, in order, from the launch contents. -/
abbrev final : Valuation τ sig (Elt Ideal) := after opsD (after opsC4 (after opsC3 (after opsC2 (after opsC1 (after opsB (after opsA4 (after opsA3 (after opsA2 (after opsA1 (after opsA0 (launchContents m c)))))))))))

abbrev src : Ends := sources (m ((c.tc : Thread nD τ).loc main_arg1))
abbrev tgt : Ends := targets (m ((c.tc : Thread nD τ).loc main_arg1))
abbrev wts : Weights := edgeWeights (src m c) (tgt m c)
/-- The hidden rows: the positive part of the first round of message passing over the first product. -/
abbrev hidden : Features :=
  positivePart (aggregate (times (m ((c.tc : Thread nD τ).loc main_arg0)) (m ((c.tc : Thread nD τ).loc main_arg2))) (wts m c) (src m c) (tgt m c) (m ((c.tc : Thread nD τ).loc main_arg3)))
/-- The output rows: the second round of message passing over the second product. -/
abbrev rows : Features :=
  aggregate (times (hidden m c) (m ((c.tc : Thread nD τ).loc main_arg4))) (wts m c) (src m c) (tgt m c) (m ((c.tc : Thread nD τ).loc main_arg5))

/-- The result buffer after the run: the third product, with its bias, of the output rows. -/
theorem result : final m c (Proc.devRef .tc main_v98)
    = timesPlus (rows m c) (m ((c.tc : Thread nD τ).loc main_arg6)) (m ((c.tc : Thread nD τ).loc main_arg7)) := by
  dsimp only [final]
  rw [pD_result, pC4_rows, pC4_arg6, pC4_arg7, wC_w, wC_src, wC_dst, wC_v48, wC_arg5, wC_arg6, wC_arg7, pB_product, pB_arg1, pB_arg5, pB_arg6, pB_arg7, pA4_hidden, pA4_arg1, pA4_arg4, pA4_arg5, pA4_arg6, pA4_arg7, wA_w, wA_src, wA_dst, wA_v0, wA_arg1, wA_arg3, wA_arg4, wA_arg5, wA_arg6, wA_arg7, pA0_product, pA0_arg1, pA0_arg3, pA0_arg4, pA0_arg5, pA0_arg6, pA0_arg7]
  try rfl

/-- Each argument's buffer ends as launched: no operation writes one. -/
theorem kept_arg0 : final m c (Proc.devRef .tc main_arg0) = m ((c.tc : Thread nD τ).loc main_arg0) := by
  dsimp only [final]
  rw [pD_arg0, pC4_arg0, wC_arg0, pB_arg0, pA4_arg0, wA_arg0, pA0_arg0]
  try rfl
theorem kept_arg1 : final m c (Proc.devRef .tc main_arg1) = m ((c.tc : Thread nD τ).loc main_arg1) := by
  dsimp only [final]
  rw [pD_arg1, pC4_arg1, wC_arg1, pB_arg1, pA4_arg1, wA_arg1, pA0_arg1]
  try rfl
theorem kept_arg2 : final m c (Proc.devRef .tc main_arg2) = m ((c.tc : Thread nD τ).loc main_arg2) := by
  dsimp only [final]
  rw [pD_arg2, pC4_arg2, wC_arg2, pB_arg2, pA4_arg2, wA_arg2, pA0_arg2]
  try rfl
theorem kept_arg3 : final m c (Proc.devRef .tc main_arg3) = m ((c.tc : Thread nD τ).loc main_arg3) := by
  dsimp only [final]
  rw [pD_arg3, pC4_arg3, wC_arg3, pB_arg3, pA4_arg3, wA_arg3, pA0_arg3]
  try rfl
theorem kept_arg4 : final m c (Proc.devRef .tc main_arg4) = m ((c.tc : Thread nD τ).loc main_arg4) := by
  dsimp only [final]
  rw [pD_arg4, pC4_arg4, wC_arg4, pB_arg4, pA4_arg4, wA_arg4, pA0_arg4]
  try rfl
theorem kept_arg5 : final m c (Proc.devRef .tc main_arg5) = m ((c.tc : Thread nD τ).loc main_arg5) := by
  dsimp only [final]
  rw [pD_arg5, pC4_arg5, wC_arg5, pB_arg5, pA4_arg5, wA_arg5, pA0_arg5]
  try rfl
theorem kept_arg6 : final m c (Proc.devRef .tc main_arg6) = m ((c.tc : Thread nD τ).loc main_arg6) := by
  dsimp only [final]
  rw [pD_arg6, pC4_arg6, wC_arg6, pB_arg6, pA4_arg6, wA_arg6, pA0_arg6]
  try rfl
theorem kept_arg7 : final m c (Proc.devRef .tc main_arg7) = m ((c.tc : Thread nD τ).loc main_arg7) := by
  dsimp only [final]
  rw [pD_arg7, pC4_arg7, wC_arg7, pB_arg7, pA4_arg7, wA_arg7, pA0_arg7]
  try rfl

end Cert.ReferenceIdeal.States

end
-- ==== Proof.Bridge.lean ====
/-
  The two sides meet: the reference's host products are the whole-array sums the regions compute.

  At an entry (r, c) the host's product of a 50000×128 array with a matrix is the sum over the 128 contracted positions
  of left (r, k) · right (k, c): the same sum, term by term, that the pipelined products leave in their result arrays.
  The bias of the last product reaches entry (r, c) as the bias vector's entry c on both sides: through a reshape to a
  1×40 row that the kernel broadcasts down its block, through two broadcasts on the host.
-/
import proofs.«124308_j9466107920639_1_alg».proof.Proof.ReferenceStates
import proofs.«124308_j9466107920639_1_alg».proof.Proof.RegionArrays
import Idealize.ShloMosaic.Lib.Pipeline.Value
import Idealize.ShloMosaic.Lib.ValueIdx
import Idealize.ShloMosaic.PureOps.Ideal.Laws

set_option maxRecDepth 16384

noncomputable section

namespace Cert.ReferenceIdeal.Bridge

open Cert.ReferenceIdeal Cert.ReferenceIdeal.Gen Cert.ReferenceIdeal.States
open Idealize.ShloMosaic Idealize.ShloMosaic.TcCoe
open Cert.KernelIdeal.RegionArrays (rowAt colAt rowAt' colAt' biasOf product productBias)
open Cert.KernelIdeal.Graph (sources targets edgeWeights aggregate positivePart Edges BiasRow)

/-! ## The 128×128 products -/

theorem left_row (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem left_col (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem right_row (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem right_col (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's product at entry `i` is the sum over the contracted positions. -/
theorem times_apply (A : FVec Ideal S50000x128 .f32) (B : FVec Ideal S128x128 .f32) (i : S50000x128.Idx) :
    times A B i = ∑ k : Fin 128, A (rowAt i k) * B (colAt i k) := by
  show FloatOps.dotGeneral dot_S50000x128_S128x128_S50000x128_1_0_0_1_n_n none .single A B i = _
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = rowAt i k := funext fun a => Fin.ext (by
    match a with
    | ⟨0, _⟩ => exact left_row _ _
    | ⟨1, _⟩ => exact (left_col _ _).trans hk)
  have er : dot_S50000x128_S128x128_S50000x128_1_0_0_1_n_n.rhsIdx i ((ValueIdx.contrEquiv1 dot_S50000x128_S128x128_S50000x128_1_0_0_1_n_n 128 rfl rfl).symm k) = colAt i k := funext fun a => Fin.ext (by
    match a with
    | ⟨0, _⟩ => exact (right_row _ _).trans hk
    | ⟨1, _⟩ => exact right_col _ _)
  rw [el, er]

/-- So the whole-array product the first two regions leave is the host's. -/
theorem product_eq_times (A : FVec Ideal S50000x128 .f32) (B : FVec Ideal S128x128 .f32) : product A B = times A B :=
  funext fun i => (times_apply A B i).symm

/-! ## The 128×40 product and its bias -/

theorem left_row' (i : S50000x40.Idx) (q : dot_S50000x128_S128x40_S50000x40_1_0_0_1_n_n.contr.Idx) :
    (dot_S50000x128_S128x40_S50000x40_1_0_0_1_n_n.lhsIdx i q 0).val = (i 0).val := by
  unfold DotDims.lhsIdx
  rw [dif_neg (show ¬(0 : Fin S50000x128.rank) ∈ dot_S50000x128_S128x40_S50000x40_1_0_0_1_n_n.lhsBatch by decide), dif_pos (show (0 : Fin S50000x128.rank) ∈ dot_S50000x128_S128x40_S50000x40_1_0_0_1_n_n.lhsNonContracting by decide)]
  rfl
theorem left_col' (i : S50000x40.Idx) (q : dot_S50000x128_S128x40_S50000x40_1_0_0_1_n_n.contr.Idx) :
    (dot_S50000x128_S128x40_S50000x40_1_0_0_1_n_n.lhsIdx i q 1).val = (q ⟨0, by decide⟩).val :=
  dot_S50000x128_S128x40_S50000x40_1_0_0_1_n_n.lhsIdx_val_of_single rfl i q
theorem right_row' (i : S50000x40.Idx) (q : dot_S50000x128_S128x40_S50000x40_1_0_0_1_n_n.contr.Idx) :
    (dot_S50000x128_S128x40_S50000x40_1_0_0_1_n_n.rhsIdx i q 0).val = (q ⟨0, by decide⟩).val :=
  dot_S50000x128_S128x40_S50000x40_1_0_0_1_n_n.rhsIdx_val_of_single rfl i q
theorem right_col' (i : S50000x40.Idx) (q : dot_S50000x128_S128x40_S50000x40_1_0_0_1_n_n.contr.Idx) :
    (dot_S50000x128_S128x40_S50000x40_1_0_0_1_n_n.rhsIdx i q 1).val = (i 1).val := by
  unfold DotDims.rhsIdx
  rw [dif_neg (show ¬(1 : Fin S128x40.rank) ∈ dot_S50000x128_S128x40_S50000x40_1_0_0_1_n_n.rhsBatch by decide), dif_pos (show (1 : Fin S128x40.rank) ∈ dot_S50000x128_S128x40_S50000x40_1_0_0_1_n_n.rhsNonContracting by decide)]
  rfl

/-- The host's 128×40 product at entry `i`. -/
theorem times40_apply (A : FVec Ideal S50000x128 .f32) (B : FVec Ideal S128x40 .f32) (i : S50000x40.Idx) :
    Host.dotGeneral (F := Ideal) dot_S50000x128_S128x40_S50000x40_1_0_0_1_n_n none A B i = ∑ k : Fin 128, A (rowAt' i k) * B (colAt' i k) := by
  show FloatOps.dotGeneral dot_S50000x128_S128x40_S50000x40_1_0_0_1_n_n none .single A B i = _
  rw [Ideal.dotGeneral_apply, ← Equiv.sum_comp (ValueIdx.contrEquiv1 dot_S50000x128_S128x40_S50000x40_1_0_0_1_n_n 128 rfl rfl).symm]
  refine Finset.sum_congr rfl fun k _ => ?_
  have hk := ValueIdx.contrEquiv1_symm_val dot_S50000x128_S128x40_S50000x40_1_0_0_1_n_n 128 rfl rfl k
  have el : dot_S50000x128_S128x40_S50000x40_1_0_0_1_n_n.lhsIdx i ((ValueIdx.contrEquiv1 dot_S50000x128_S128x40_S50000x40_1_0_0_1_n_n 128 rfl rfl).symm k) = rowAt' i k := funext fun a => Fin.ext (by
    match a with
    | ⟨0, _⟩ => exact left_row' _ _
    | ⟨1, _⟩ => exact (left_col' _ _).trans hk)
  have er : dot_S50000x128_S128x40_S50000x40_1_0_0_1_n_n.rhsIdx i ((ValueIdx.contrEquiv1 dot_S50000x128_S128x40_S50000x40_1_0_0_1_n_n 128 rfl rfl).symm k) = colAt' i k := funext fun a => Fin.ext (by
    match a with
    | ⟨0, _⟩ => exact (right_row' _ _).trans hk
    | ⟨1, _⟩ => exact right_col' _ _)
  rw [el, er]

/-- Entry `c` of the bias vector, for an entry (r, c) of the result. -/
abbrev biasEntry (i : S50000x40.Idx) : S40.Idx := fun a => match a with
  | ⟨0, _⟩ => ⟨(i 1).val, (i 1).isLt⟩

/-- The host's two broadcasts carry the bias vector's entry c to every entry (r, c). -/
theorem hostBias_apply (b : FVec Ideal S40 .f32) (i : S50000x40.Idx) :
    broadcastInDim S50000x40 ![0, 1] bcast_S1x40_S50000x40_0_1 (broadcastInDim S1x40 ![1] bcast_S40_S1x40_1 b) i = b (biasEntry i) := by
  rw [broadcastInDim_apply ![0, 1] bcast_S1x40_S50000x40_0_1 _ i (biasOf i) (fun a => by
    match a with
    | ⟨0, _⟩ => rfl
    | ⟨1, _⟩ => rfl)]
  exact broadcastInDim_apply ![1] bcast_S40_S1x40_1 b (biasOf i) (biasEntry i) (fun a => by
    match a with
    | ⟨0, _⟩ => rfl)

/-- The kernel's reshape of the bias vector to a 1×40 row has the vector's entry c at (0, c). -/
theorem kernelBias_apply (b : FVec Ideal S40 .f32) (h : S40.ShapeCasts S1x40) (i : S50000x40.Idx) :
    shapeCast S1x40 b h (biasOf i) = b (biasEntry i) :=
  shapeCast_apply b h (biasOf i) (biasEntry i) (by
    rw [Shape.rowMajor_val_one, Shape.rowMajor_val_two]
    show (i 1).val = 0 * 40 + (i 1).val
    omega)

/-- So the third region's result is the host's product plus broadcast bias. -/
theorem productBias_eq_timesPlus (A : FVec Ideal S50000x128 .f32) (B : FVec Ideal S128x40 .f32) (b : FVec Ideal S40 .f32) (h : S40.ShapeCasts S1x40) :
    productBias A B (shapeCast S1x40 b h) = timesPlus A B b := by
  funext i
  show (∑ k : Fin 128, A (rowAt' i k) * B (colAt' i k)) + shapeCast S1x40 b h (biasOf i)
    = FloatOps.addf (Host.dotGeneral (F := Ideal) dot_S50000x128_S128x40_S50000x40_1_0_0_1_n_n none A B i)
        (broadcastInDim S50000x40 ![0, 1] bcast_S1x40_S50000x40_0_1 (broadcastInDim S1x40 ![1] bcast_S40_S1x40_1 b) i)
  rw [times40_apply, hostBias_apply, kernelBias_apply]
  rfl

/-! ## The two programs' results -/

/-- The kernel's result — its three pipelined products around the two rounds of message passing — is the reference's:
    the same rounds around the host's three products. -/
theorem results_agree (x0 : FVec Ideal S50000x128 .f32) (e : Edges) (x2 : FVec Ideal S128x128 .f32) (x3 : BiasRow)
    (x4 : FVec Ideal S128x128 .f32) (x5 : BiasRow) (x6 : FVec Ideal S128x40 .f32) (x7 : FVec Ideal S40 .f32) (h : S40.ShapeCasts S1x40) :
    productBias
        (aggregate (product (positivePart (aggregate (product x0 x2) (edgeWeights (sources e) (targets e)) (sources e) (targets e) x3)) x4)
          (edgeWeights (sources e) (targets e)) (sources e) (targets e) x5)
        x6 (shapeCast S1x40 x7 h)
      = timesPlus
        (aggregate (times (positivePart (aggregate (times x0 x2) (edgeWeights (sources e) (targets e)) (sources e) (targets e) x3)) x4)
          (edgeWeights (sources e) (targets e)) (sources e) (targets e) x5)
        x6 x7 := by
  rw [productBias_eq_timesPlus, product_eq_times, product_eq_times]

end Cert.ReferenceIdeal.Bridge

end
-- ==== Proof.lean ====
/-
  A two-layer graph convolution, node classification over 50000 nodes and 600000 edges: the kernel's program against its
  jnp reference, over the extended reals.

  Both programs compute  logits = Â · relu(Â · (x W1) + b1) W2 + b2, times Wfc, plus bfc,  where Â is the symmetric
  normalisation D^(-1/2) (A + I) D^(-1/2) of the edge list. They apply the same host operations for the graph side (the
  extended edge list, the degrees, the weights, the gather, the scaling and the scatter-add of each round). They differ in
  the three dense products: the kernel runs each as a pipeline over ten blocks of 5000 rows on the matrix unit, rounding
  its operands to bf16 on the way in, where the reference applies one host product; and the reference recomputes the
  edge weights for its second round where the kernel keeps them. Over the extended reals the roundings are the
  identity, a block product into a zero accumulator is the plain sum over the 128 contracted positions, and the ten row
  blocks tile the rows: so each pipelined product is the host's, entry by entry, and the two results are one function
  of the arguments. No law beyond reading both products as the same sum is used, so finiteness of the inputs is never
  opened.

  The modules: `BlockProduct` (a block's product at an entry), `RegionArrays` (a region's result array from its blocks),
  `GraphOps` (the host operations of the graph side, named), `StretchFirst` / `StretchSecond` / `StretchThird` (the
  kernel's host operations between its regions, read as those named functions), `KernelStates` and `KernelRun` (the
  kernel's buffers boundary by boundary, and its run), `ReferenceOps` (the reference's operations and its run),
  `ReferenceProducts`, `RefWeightsA` / `RefWeightsC` / `RefRoundA` / `RefRoundC` (the reference's operations piece by piece,
  read as the same named functions), `ReferenceStates` (its result), `Bridge` (the host's product as the same sum; the
  bias; the two results).
-/
import proofs.«124308_j9466107920639_1_alg».proof.Defs
import proofs.«124308_j9466107920639_1_alg».proof.Proof.Gen.Kernel
import proofs.«124308_j9466107920639_1_alg».proof.Proof.Gen.Kernel.Frame
import proofs.«124308_j9466107920639_1_alg».proof.Proof.Gen.KernelIdeal
import proofs.«124308_j9466107920639_1_alg».proof.Proof.Gen.KernelIdeal.Frame
import proofs.«124308_j9466107920639_1_alg».proof.Proof.Gen.ReferenceIdeal
import proofs.«124308_j9466107920639_1_alg».proof.Proof.Gen.Pre_finite_inputs
import proofs.«124308_j9466107920639_1_alg».proof.Proof.KernelRun
import proofs.«124308_j9466107920639_1_alg».proof.Proof.KernelStates
import proofs.«124308_j9466107920639_1_alg».proof.Proof.ReferenceStates
import proofs.«124308_j9466107920639_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The printed kernel runs and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations, none of which writes an argument. -/
theorem frame_reference : Cert.frame_ReferenceIdeal := fun m ρ _ =>
  (θ_run Cert.ReferenceIdeal.defs _ _).mono (fun _ h c =>
    ⟨(h c _).trans (Cert.ReferenceIdeal.States.kept_arg0 m c), (h c _).trans (Cert.ReferenceIdeal.States.kept_arg1 m c),
     (h c _).trans (Cert.ReferenceIdeal.States.kept_arg2 m c), (h c _).trans (Cert.ReferenceIdeal.States.kept_arg3 m c),
     (h c _).trans (Cert.ReferenceIdeal.States.kept_arg4 m c), (h c _).trans (Cert.ReferenceIdeal.States.kept_arg5 m c),
     (h c _).trans (Cert.ReferenceIdeal.States.kept_arg6 m c), (h c _).trans (Cert.ReferenceIdeal.States.kept_arg7 m c)⟩)
    (Cert.ReferenceIdeal.Ops.run_all (F := Ideal) m ρ)

/-- The idealization rewrote nothing: there is nothing to preserve. -/
theorem preserves : Cert.preserves_Kernel_KernelIdeal := trivial

/-- From memories that agree on the arguments both programs end with the same logits: the kernel's result array at its
    three pipelined products around the two rounds of message passing, the reference's at the host's products around
    the same rounds, and each pipelined product is the host's. -/
theorem algebraic : Cert.algebraic_KernelIdeal_ReferenceIdeal := by
  intro m ρ m' ρ' _ hagree
  refine ⟨fun c => Cert.KernelIdeal.RegionArrays.productBias (Cert.KernelIdeal.States.rows m c)
      (m ((c.tc : Thread Cert.KernelIdeal.nD Cert.KernelIdeal.τ).loc Cert.KernelIdeal.main_arg6))
      (shapeCast Cert.KernelIdeal.S1x40 (m ((c.tc : Thread Cert.KernelIdeal.nD Cert.KernelIdeal.τ).loc Cert.KernelIdeal.main_arg7)) Cert.KernelIdeal.Gen.shapeCasts_S40_S1x40), ?_, ?_⟩
  · exact (θ_run Cert.KernelIdeal.defs _ _).mono (fun _ h c => ⟨(h c).1.trans (Cert.KernelIdeal.States.result m ρ c), (h c).2⟩)
      (Cert.KernelIdeal.Result.run (F := Ideal) m ρ)
  · refine (θ_run Cert.ReferenceIdeal.defs _ _).mono (fun _ h c => ?_) (Cert.ReferenceIdeal.Ops.run_all (F := Ideal) m' ρ')
    refine ⟨(h c _).trans ((Cert.ReferenceIdeal.States.result m' c).trans ?_),
      (h c _).trans (Cert.ReferenceIdeal.States.kept_arg0 m' c), (h c _).trans (Cert.ReferenceIdeal.States.kept_arg1 m' c),
      (h c _).trans (Cert.ReferenceIdeal.States.kept_arg2 m' c), (h c _).trans (Cert.ReferenceIdeal.States.kept_arg3 m' c),
      (h c _).trans (Cert.ReferenceIdeal.States.kept_arg4 m' c), (h c _).trans (Cert.ReferenceIdeal.States.kept_arg5 m' c),
      (h c _).trans (Cert.ReferenceIdeal.States.kept_arg6 m' c), (h c _).trans (Cert.ReferenceIdeal.States.kept_arg7 m' c)⟩
    obtain ⟨a0, a1, a2, a3, a4, a5, a6, a7⟩ := hagree c
    dsimp only [Cert.ReferenceIdeal.States.rows, Cert.ReferenceIdeal.States.hidden, Cert.ReferenceIdeal.States.wts,
      Cert.ReferenceIdeal.States.src, Cert.ReferenceIdeal.States.tgt]
    rw [a0, a1, a2, a3, a4, a5, a6, a7]
    exact (Cert.ReferenceIdeal.Bridge.results_agree _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
